-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2500 : Shape := ⟨2, ![8192, 2500]⟩
abbrev S3310x3310 : Shape := ⟨2, ![3310, 3310]⟩
abbrev S3310 : Shape := ⟨1, ![3310]⟩
abbrev S_ : Shape := ⟨0, ![]⟩

class Facts : Prop where
  bcast_S_S8192x2500 : S_.BroadcastsInDim S8192x2500 (![] : Fin 0 → Fin S8192x2500.rank)
  reducesTo_S8192x2500_S_d0_1 : S8192x2500.ReducesTo [0, 1] S_
  h_S_ : 0 < S_.numel
  bcast_S_S3310x3310 : S_.BroadcastsInDim S3310x3310 (![] : Fin 0 → Fin S3310x3310.rank)
  reducesTo_S3310x3310_S_d0_1 : S3310x3310.ReducesTo [0, 1] S_
  bcast_S_S3310 : S_.BroadcastsInDim S3310 (![] : Fin 0 → Fin S3310.rank)
  reducesTo_S3310_S_d0 : S3310.ReducesTo [0] S_

variable [Facts]

def fn_part1 {F : FTy → Type} [FloatOps F] (main_v13 : IVec S_ 1) (main_v16 : IVec S3310x3310 1) : IVec S_ 1 :=
  let main_c_5 : IVec S_ 1 := constantI S_ 1 1#1
  let main_v17 : IVec S_ 1 := (fun x v => Host.reduce IntOp.andi x v reducesTo_S3310x3310_S_d0_1 h_S_) main_v16 main_c_5
  let main_v18 : IVec S_ 1 := andi main_v13 main_v17
  main_v18

def fn {F : FTy → Type} [FloatOps F] (main_arg0 : FVec F S8192x2500 .f32) (main_arg1 : FVec F S3310x3310 .f32) (main_arg2 : FVec F S3310 .f32) (main_arg3 : FVec F S3310x3310 .f32) : IVec S_ 1 :=
  let main_v0 : FVec F S8192x2500 .f32 := Host.absf main_arg0
  let main_cst : FVec F S_ .f32 := constant S_ .f32 0x7F800000#32
  let main_v1 : FVec F S8192x2500 .f32 := broadcastInDim S8192x2500 ![] bcast_S_S8192x2500 main_cst
  let main_v2 : IVec S8192x2500 1 := cmpf .olt main_v0 main_v1
  let main_c : IVec S_ 1 := constantI S_ 1 1#1
  let main_v3 : IVec S_ 1 := (fun x v => Host.reduce IntOp.andi x v reducesTo_S8192x2500_S_d0_1 h_S_) main_v2 main_c
  let main_v4 : FVec F S3310x3310 .f32 := Host.absf main_arg1
  let main_cst_0 : FVec F S_ .f32 := constant S_ .f32 0x7F800000#32
  let main_v5 : FVec F S3310x3310 .f32 := broadcastInDim S3310x3310 ![] bcast_S_S3310x3310 main_cst_0
  let main_v6 : IVec S3310x3310 1 := cmpf .olt main_v4 main_v5
  let main_c_1 : IVec S_ 1 := constantI S_ 1 1#1
  let main_v7 : IVec S_ 1 := (fun x v => Host.reduce IntOp.andi x v reducesTo_S3310x3310_S_d0_1 h_S_) main_v6 main_c_1
  let main_v8 : IVec S_ 1 := andi main_v3 main_v7
  let main_v9 : FVec F S3310 .f32 := Host.absf main_arg2
  let main_cst_2 : FVec F S_ .f32 := constant S_ .f32 0x7F800000#32
  let main_v10 : FVec F S3310 .f32 := broadcastInDim S3310 ![] bcast_S_S3310 main_cst_2
  let main_v11 : IVec S3310 1 := cmpf .olt main_v9 main_v10
  let main_c_3 : IVec S_ 1 := constantI S_ 1 1#1
  let main_v12 : IVec S_ 1 := (fun x v => Host.reduce IntOp.andi x v reducesTo_S3310_S_d0 h_S_) main_v11 main_c_3
  let main_v13 : IVec S_ 1 := andi main_v8 main_v12
  let main_v14 : FVec F S3310x3310 .f32 := Host.absf main_arg3
  let main_cst_4 : FVec F S_ .f32 := constant S_ .f32 0x7F800000#32
  let main_v15 : FVec F S3310x3310 .f32 := broadcastInDim S3310x3310 ![] bcast_S_S3310x3310 main_cst_4
  let main_v16 : IVec S3310x3310 1 := cmpf .olt main_v14 main_v15
  fn_part1 (F := F) main_v13 main_v16
-- ==== Kernel.lean ====
abbrev S8192x2500 : Shape := ⟨2, ![8192, 2500]⟩
abbrev S3310x3310 : Shape := ⟨2, ![3310, 3310]⟩
abbrev S3310 : Shape := ⟨1, ![3310]⟩
abbrev S_ : Shape := ⟨0, ![]⟩
abbrev S3328x3328 : Shape := ⟨2, ![3328, 3328]⟩
abbrev S3328 : Shape := ⟨1, ![3328]⟩
abbrev S1x3328 : Shape := ⟨2, ![1, 3328]⟩
abbrev S8192x2560 : Shape := ⟨2, ![8192, 2560]⟩
abbrev S8192x3328 : Shape := ⟨2, ![8192, 3328]⟩
abbrev S256x2560 : Shape := ⟨2, ![256, 2560]⟩
abbrev S256x3328 : Shape := ⟨2, ![256, 3328]⟩
abbrev S2560x3328 : Shape := ⟨2, ![2560, 3328]⟩
abbrev S8192x3310 : Shape := ⟨2, ![8192, 3310]⟩

abbrev nBuf : Space → Nat
  | .hbm => 19
  | .vmem => 6
  | .smem => 0
  | _ => 0

abbrev bufTy : (tb : Table) → Fin (tcTables nBuf tb) → BufTy
  | .hbm, ⟨0, _⟩ => ⟨S8192x2500, .f32⟩
  | .hbm, ⟨1, _⟩ => ⟨S3310x3310, .f32⟩
  | .hbm, ⟨2, _⟩ => ⟨S3310, .f32⟩
  | .hbm, ⟨3, _⟩ => ⟨S3310x3310, .f32⟩
  | .hbm, ⟨4, _⟩ => ⟨S3310x3310, .f32⟩
  | .hbm, ⟨5, _⟩ => ⟨S_, .i32⟩
  | .hbm, ⟨6, _⟩ => ⟨S_, .f32⟩
  | .hbm, ⟨7, _⟩ => ⟨S3328x3328, .f32⟩
  | .hbm, ⟨8, _⟩ => ⟨S3328x3328, .bf16⟩
  | .hbm, ⟨9, _⟩ => ⟨S_, .i32⟩
  | .hbm, ⟨10, _⟩ => ⟨S_, .f32⟩
  | .hbm, ⟨11, _⟩ => ⟨S3328, .f32⟩
  | .hbm, ⟨12, _⟩ => ⟨S1x3328, .f32⟩
  | .hbm, ⟨13, _⟩ => ⟨S_, .i32⟩
  | .hbm, ⟨14, _⟩ => ⟨S_, .f32⟩
  | .hbm, ⟨15, _⟩ => ⟨S8192x2560, .f32⟩
  | .hbm, ⟨16, _⟩ => ⟨S8192x2560, .bf16⟩
  | .hbm, ⟨17, _⟩ => ⟨S8192x3328, .f32⟩
  | .hbm, ⟨18, _⟩ => ⟨S8192x3310, .f32⟩
  | .local _ .vmem, ⟨0, _⟩ => ⟨S256x2560, .bf16⟩
  | .local _ .vmem, ⟨1, _⟩ => ⟨S256x2560, .bf16⟩
  | .local _ .vmem, ⟨2, _⟩ => ⟨S3328x3328, .bf16⟩
  | .local _ .vmem, ⟨3, _⟩ => ⟨S1x3328, .f32⟩
  | .local _ .vmem, ⟨4, _⟩ => ⟨S256x3328, .f32⟩
  | .local _ .vmem, ⟨5, _⟩ => ⟨S256x3328, .f32⟩
  | _, _ => ⟨S8192x2500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_call2_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3328x3328 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3328 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x3328 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  pads_S3310x3310_S3328x3328_0180_0180 : S3310x3310.Pads (![0, 0] : Fin 2 → Nat) ![18, 18] ![0, 0] S3328x3328
  h_S_ : 0 < S_.numel
  bitsLt_bf16_f32 : FTy.bits .bf16 < FTy.bits .f32
  pads_S3310_S3328_0180 : S3310.Pads (![0] : Fin 1 → Nat) ![18] ![0] S3328
  shapeCasts_S3328_S1x3328 : S3328.ShapeCasts S1x3328
  pads_S8192x2500_S8192x2560_000_0600 : S8192x2500.Pads (![0, 0] : Fin 2 → Nat) ![0, 60] ![0, 0] S8192x2560
  inb_S1x3328_S1x3328_0_0 : ∀ a, (![0, 0] : Fin 2 → Nat) a + S1x3328.size a ≤ S1x3328.size a
  h_S1x3328 : 0 < S1x3328.numel
  shapeCasts_S1x3328_S1x3328 : S1x3328.ShapeCasts S1x3328
  broadcasts_S1x3328_S256x3328 : S1x3328.Broadcasts S256x3328
  inb_S256x2560_S256x2560_0_0 : ∀ a, (![0, 0] : Fin 2 → Nat) a + S256x2560.size a ≤ S256x2560.size a
  h_S256x2560 : 0 < S256x2560.numel
  shapeCasts_S256x2560_S256x2560 : S256x2560.ShapeCasts S256x2560
  inb_S3328x3328_S2560x3328_0_0 : ∀ a, (![0, 0] : Fin 2 → Nat) a + S2560x3328.size a ≤ S3328x3328.size a
  h_S2560x3328 : 0 < S2560x3328.numel
  shapeCasts_S2560x3328_S2560x3328 : S2560x3328.ShapeCasts S2560x3328
  inb_S3328x3328_S3328x3328_0_0 : ∀ a, (![0, 0] : Fin 2 → Nat) a + S3328x3328.size a ≤ S3328x3328.size a
  h_S3328x3328 : 0 < S3328x3328.numel
  shapeCasts_S3328x3328_S3328x3328 : S3328x3328.ShapeCasts S3328x3328
  inb_S256x3328_S256x3328_0_0 : ∀ a, (![0, 0] : Fin 2 → Nat) a + S256x3328.size a ≤ S256x3328.size a
  h_S256x3328 : 0 < S256x3328.numel
  slices_S8192x3328_S8192x3310_0_0 : S8192x3328.Slices ![0, 0] S8192x3310
  dot_S256x2560_S2560x3328_S256x3328_1_0_0_1_n_n_wf : DotDims.WF S256x2560 S2560x3328 S256x3328 [1] [0] [0] [1] [] []
  dot_S256x3328_S3328x3328_S256x3328_1_0_0_1_n_n_wf : DotDims.WF S256x3328 S3328x3328 S256x3328 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2560.size a ≤ S8192x2560.size a
  hwx0_0 : ∀ i : grid0.Coords, EltTy.bits .bf16 = 32 ∨ (Rect.block (s := S8192x2560) S256x2560.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3328x3328.size a ≤ S3328x3328.size a
  hwx0_1 : ∀ i : grid0.Coords, EltTy.bits .bf16 = 32 ∨ (Rect.block (s := S3328x3328) S3328x3328.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3328.size a ≤ S1x3328.size a
  hwx0_2 : ∀ i : grid0.Coords, EltTy.bits .f32 = 32 ∨ (Rect.block (s := S1x3328) S1x3328.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x3328.size a ≤ S8192x3328.size a
  hwx0_3 : ∀ i : grid0.Coords, EltTy.bits .f32 = 32 ∨ (Rect.block (s := S8192x3328) S256x3328.size (cc0_transform_3 i) (hinb0_3 i)).WholeWords (EltTy.packing .f32)

variable [Facts₀]

def dot_S256x2560_S2560x3328_S256x3328_1_0_0_1_n_n : DotDims S256x2560 S2560x3328 S256x3328 where
  lhsContracting := [1]
  rhsContracting := [0]
  lhsNonContracting := [0]
  rhsNonContracting := [1]
  lhsBatch := []
  rhsBatch := []
  wf := dot_S256x2560_S2560x3328_S256x3328_1_0_0_1_n_n_wf
def dot_S256x3328_S3328x3328_S256x3328_1_0_0_1_n_n : DotDims S256x3328 S3328x3328 S256x3328 where
  lhsContracting := [1]
  rhsContracting := [0]
  lhsNonContracting := [0]
  rhsNonContracting := [1]
  lhsBatch := []
  rhsBatch := []
  wf := dot_S256x3328_S3328x3328_S256x3328_1_0_0_1_n_n_wf

abbrev win0_0 : Pipeline.Window sig grid0 :=
  Pipeline.Window.ofSpec (Memref.whole main_v6) S256x2560.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S3328x3328.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x3328.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S256x3328.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x2500 : Shape := ⟨2, ![8192, 2500]⟩
abbrev S3310x3310 : Shape := ⟨2, ![3310, 3310]⟩
abbrev S3310 : Shape := ⟨1, ![3310]⟩
abbrev S_ : Shape := ⟨0, ![]⟩
abbrev S8192x810 : Shape := ⟨2, ![8192, 810]⟩
abbrev S8192x3310 : Shape := ⟨2, ![8192, 3310]⟩
abbrev S1x3310 : Shape := ⟨2, ![1, 3310]⟩

abbrev nBuf : Space → Nat
  | .hbm => 33
  | .vmem => 0
  | .smem => 0
  | _ => 0

abbrev bufTy : (tb : Table) → Fin (tcTables nBuf tb) → BufTy
  | .hbm, ⟨0, _⟩ => ⟨S8192x2500, .f32⟩
  | .hbm, ⟨1, _⟩ => ⟨S3310x3310, .f32⟩
  | .hbm, ⟨2, _⟩ => ⟨S3310, .f32⟩
  | .hbm, ⟨3, _⟩ => ⟨S3310x3310, .f32⟩
  | .hbm, ⟨4, _⟩ => ⟨S3310x3310, .f32⟩
  | .hbm, ⟨5, _⟩ => ⟨S_, .f32⟩
  | .hbm, ⟨6, _⟩ => ⟨S8192x810, .f32⟩
  | .hbm, ⟨7, _⟩ => ⟨S8192x3310, .f32⟩
  | .hbm, ⟨8, _⟩ => ⟨S8192x3310, .f32⟩
  | .hbm, ⟨9, _⟩ => ⟨S1x3310, .f32⟩
  | .hbm, ⟨10, _⟩ => ⟨S8192x3310, .f32⟩
  | .hbm, ⟨11, _⟩ => ⟨S8192x3310, .f32⟩
  | .hbm, ⟨12, _⟩ => ⟨S_, .f32⟩
  | .hbm, ⟨13, _⟩ => ⟨S8192x3310, .f32⟩
  | .hbm, ⟨14, _⟩ => ⟨S8192x3310, .f32⟩
  | .hbm, ⟨15, _⟩ => ⟨S8192x3310, .f32⟩
  | .hbm, ⟨16, _⟩ => ⟨S1x3310, .f32⟩
  | .hbm, ⟨17, _⟩ => ⟨S8192x3310, .f32⟩
  | .hbm, ⟨18, _⟩ => ⟨S8192x3310, .f32⟩
  | .hbm, ⟨19, _⟩ => ⟨S_, .f32⟩
  | .hbm, ⟨20, _⟩ => ⟨S8192x3310, .f32⟩
  | .hbm, ⟨21, _⟩ => ⟨S8192x3310, .f32⟩
  | .hbm, ⟨22, _⟩ => ⟨S8192x3310, .f32⟩
  | .hbm, ⟨23, _⟩ => ⟨S1x3310, .f32⟩
  | .hbm, ⟨24, _⟩ => ⟨S8192x3310, .f32⟩
  | .hbm, ⟨25, _⟩ => ⟨S8192x3310, .f32⟩
  | .hbm, ⟨26, _⟩ => ⟨S_, .f32⟩
  | .hbm, ⟨27, _⟩ => ⟨S8192x3310, .f32⟩
  | .hbm, ⟨28, _⟩ => ⟨S8192x3310, .f32⟩
  | .hbm, ⟨29, _⟩ => ⟨S8192x3310, .f32⟩
  | .hbm, ⟨30, _⟩ => ⟨S1x3310, .f32⟩
  | .hbm, ⟨31, _⟩ => ⟨S8192x3310, .f32⟩
  | .hbm, ⟨32, _⟩ => ⟨S8192x3310, .f32⟩
  | _, _ => ⟨S8192x2500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_cst : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call1_cst : Ref sig .tc := ⟨.hbm, 19, rfl⟩
abbrev main_call1_v0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call2_cst : Ref sig .tc := ⟨.hbm, 26, rfl⟩
abbrev main_call2_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]

class Facts₀ : Prop where
  bcast_S_S8192x810 : S_.BroadcastsInDim S8192x810 (![] : Fin 0 → Fin S8192x810.rank)
  concatenates_S8192x2500_S8192x810_S8192x3310_d1 : Shape.Concatenates [S8192x2500, S8192x810] S8192x3310 1
  bcast_S3310_S1x3310_1 : S3310.BroadcastsInDim S1x3310 (![1] : Fin 1 → Fin S1x3310.rank)
  bcast_S1x3310_S8192x3310_0_1 : S1x3310.BroadcastsInDim S8192x3310 (![0, 1] : Fin 2 → Fin S8192x3310.rank)
  bcast_S_S8192x3310 : S_.BroadcastsInDim S8192x3310 (![] : Fin 0 → Fin S8192x3310.rank)
  dot_S8192x3310_S3310x3310_S8192x3310_1_0_0_1_n_n_wf : DotDims.WF S8192x3310 S3310x3310 S8192x3310 [1] [0] [0] [1] [] []

variable [Facts₀]

def dot_S8192x3310_S3310x3310_S8192x3310_1_0_0_1_n_n : DotDims S8192x3310 S3310x3310 S8192x3310 where
  lhsContracting := [1]
  rhsContracting := [0]
  lhsNonContracting := [0]
  rhsNonContracting := [1]
  lhsBatch := []
  rhsBatch := []
  wf := dot_S8192x3310_S3310x3310_S8192x3310_1_0_0_1_n_n_wf

class Facts : Prop extends Facts₀ where

variable [Facts]
-- ==== Proof.KernelArrays.lean ====
/-
  The three arrays the kernel's region stages, as functions of the program's arguments.

  Before the region the host masks the weight (Wm = W ∘ mask, entry by entry), pads it with zeros to 3328×3328, pads
  the offset vector with zeros to 3328 entries and recasts it as one row [1, 3328], and pads the input with 60 zero
  columns to [8192, 2560]; the changes of float format are the identity over the extended reals, and the padding value
  is the integer 0 converted, which is 0. Read at an index: inside the original extent a padded array holds the original
  entry; outside it, 0.
-/
import proofs.«114540_j82025285419746_2_alg».proof.Proof.Gen.KernelIdeal.Frame
import Idealize.ShloMosaic.Lib.StableHlo.Run
import Idealize.ShloMosaic.Lib.KernelVsHost
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.TcCoe Idealize.SL.Sem
open Idealize.ShloMosaic.ValueIdx Idealize.ShloMosaic.StableHlo

/-- The padding value: the integer zero converted to a float. -/
def padv : FVec Ideal S_ .f32 := sitofp .f32 (constantI S_ 32 0#32)

theorem padv_apply (i : S_.Idx) : padv i = 0 := by
  show ((((0#32 : BitVec 32).toInt : ℤ) : ℝ) : EReal) = 0
  simp

/-- The input padded with 60 zero columns. -/
def XP (X : FVec Ideal S8192x2500 .f32) : FVec Ideal S8192x2560 .bf16 :=
  truncf .bf16 (pad S8192x2560 ![0, 0] ![0, 60] ![0, 0] X padv pads_S8192x2500_S8192x2560_000_0600 h_S_) bitsLt_bf16_f32

/-- The masked weight padded with 18 zero rows and 18 zero columns. -/
def WP (Wm : FVec Ideal S3310x3310 .f32) : FVec Ideal S3328x3328 .bf16 :=
  truncf .bf16 (pad S3328x3328 ![0, 0] ![18, 18] ![0, 0] Wm padv pads_S3310x3310_S3328x3328_0180_0180 h_S_) bitsLt_bf16_f32

/-- The offset vector padded with 18 zeros, as one row. -/
def BP (B : FVec Ideal S3310 .f32) : FVec Ideal S1x3328 .f32 :=
  shapeCast S1x3328 (pad S3328 ![0] ![18] ![0] B padv pads_S3310_S3328_0180 h_S_) shapeCasts_S3328_S1x3328

theorem XP_in (X : FVec Ideal S8192x2500 .f32) (r : Fin 8192) (k' : Fin 2560) (k : Fin 2500) (h : k'.val = k.val) :
    XP X (ix2 r k') = X (ix2 r k) := by
  show pad S8192x2560 ![0, 0] ![0, 60] ![0, 0] X padv pads_S8192x2500_S8192x2560_000_0600 h_S_ (ix2 r k') = _
  refine pad_apply_of_inside _ _ _ X padv _ h_S_ (ix2 r k') (ix2 r k) fun a => ?_
  match a with
  | ⟨0, _⟩ => show r.val = 0 + r.val * (0 + 1); omega
  | ⟨1, _⟩ => show k'.val = 0 + k.val * (0 + 1); omega

theorem XP_out (X : FVec Ideal S8192x2500 .f32) (r : Fin 8192) (k' : Fin 2560) (h : 2500 ≤ k'.val) :
    XP X (ix2 r k') = 0 := by
  show pad S8192x2560 ![0, 0] ![0, 60] ![0, 0] X padv pads_S8192x2500_S8192x2560_000_0600 h_S_ (ix2 r k') = _
  rw [pad_apply_of_not_inside _ _ _ X padv _ h_S_ (ix2 r k') (1 : Fin 2)
    (by show ¬(0 ≤ k'.val ∧ (k'.val - 0) % 1 = 0 ∧ (k'.val - 0) / 1 < 2500); omega)]
  exact padv_apply _

theorem WP_in (Wm : FVec Ideal S3310x3310 .f32) (k' q' : Fin 3328) (k q : Fin 3310) (hk : k'.val = k.val) (hq : q'.val = q.val) :
    WP Wm (ix2 k' q') = Wm (ix2 k q) := by
  show pad S3328x3328 ![0, 0] ![18, 18] ![0, 0] Wm padv pads_S3310x3310_S3328x3328_0180_0180 h_S_ (ix2 k' q') = _
  refine pad_apply_of_inside _ _ _ Wm padv _ h_S_ (ix2 k' q') (ix2 k q) fun a => ?_
  match a with
  | ⟨0, _⟩ => show k'.val = 0 + k.val * (0 + 1); omega
  | ⟨1, _⟩ => show q'.val = 0 + q.val * (0 + 1); omega

theorem WP_out (Wm : FVec Ideal S3310x3310 .f32) (k' q' : Fin 3328) (h : 3310 ≤ k'.val) :
    WP Wm (ix2 k' q') = 0 := by
  show pad S3328x3328 ![0, 0] ![18, 18] ![0, 0] Wm padv pads_S3310x3310_S3328x3328_0180_0180 h_S_ (ix2 k' q') = _
  rw [pad_apply_of_not_inside _ _ _ Wm padv _ h_S_ (ix2 k' q') (0 : Fin 2)
    (by show ¬(0 ≤ k'.val ∧ (k'.val - 0) % 1 = 0 ∧ (k'.val - 0) / 1 < 3310); omega)]
  exact padv_apply _

theorem BP_in (B : FVec Ideal S3310 .f32) (q' : Fin 3328) (q : Fin 3310) (hq : q'.val = q.val) :
    BP B (ix2 (0 : Fin 1) q') = B (ix1 q) := by
  unfold BP
  rw [shapeCast_apply _ shapeCasts_S3328_S1x3328 (ix2 (0 : Fin 1) q') (ix1 q')
    (by rw [Shape.rowMajor_val_one, Shape.rowMajor_val_two]; show q'.val = 0 * 3328 + q'.val; omega)]
  refine pad_apply_of_inside _ _ _ B padv _ h_S_ (ix1 q') (ix1 q) fun a => ?_
  match a with
  | ⟨0, _⟩ => show q'.val = 0 + q.val * (0 + 1); omega

variable (m : (ℓ : Loc nD τ sig) → Buf (Elt Ideal) ℓ)

/-- The array window 0 stages is the padded input. -/
theorem V_v6 (c : Dev nD) :
    (V m c main_v6 : (⟨S8192x2560, .bf16⟩ : BufTy).Contents (Elt Ideal)) = XP (m ((c : Thread nD τ).loc main_arg0)) := by
  dsimp only [V, V0]
  simp only [hostOps0, hostOps0_1, hostOps0_2, hostOps0_3, hostOps0_4, hostOps0_5, hostOps0_6, List.flatten_cons,
    List.flatten_nil, List.append_nil, List.cons_append, List.nil_append]
  after_results
  rfl

/-- The array window 1 stages is the padded masked weight. -/
theorem V_v2 (c : Dev nD) :
    (V m c main_v2 : (⟨S3328x3328, .bf16⟩ : BufTy).Contents (Elt Ideal))
      = WP (mulf (m ((c : Thread nD τ).loc main_arg1)) (m ((c : Thread nD τ).loc main_arg3))) := by
  dsimp only [V, V0]
  simp only [hostOps0, hostOps0_1, hostOps0_2, hostOps0_3, hostOps0_4, hostOps0_5, hostOps0_6, List.flatten_cons,
    List.flatten_nil, List.append_nil, List.cons_append, List.nil_append]
  after_results
  rfl

/-- The array window 2 stages is the padded offset row. -/
theorem V_v4 (c : Dev nD) :
    (V m c main_v4 : (⟨S1x3328, .f32⟩ : BufTy).Contents (Elt Ideal)) = BP (m ((c : Thread nD τ).loc main_arg2)) := by
  dsimp only [V, V0]
  simp only [hostOps0, hostOps0_1, hostOps0_2, hostOps0_3, hostOps0_4, hostOps0_5, hostOps0_6, List.flatten_cons,
    List.flatten_nil, List.append_nil, List.cons_append, List.nil_append]
  after_results
  rfl

end Cert.KernelIdeal.Hand

end
-- ==== Proof.LibDotRows.lean ====
/-
  A plain matrix product read entry by entry, and cut into row blocks.

  For the dimension numbers "contract axis 1 of an [M, K] left operand with axis 0 of a [K, N] right operand"
  (`DotDims.plain M K N`), over the extended reals:
    * entry (p, q) of the host's product is the sum over k of x[p, k] · w[k, q]          (`dotGeneral_plain_apply`);
    * a kernel's product accumulated into the zero splat is the same sum                  (`matmul_plain_apply`);
    * hence the product of a block of B rows of x (rows r0 … r0 + B − 1) with the whole of w is the
      corresponding block of rows of the whole product                                    (`matmul_rows`).
  Only `0 + s = s` and a re-indexing of the sum are used, so nothing here needs finiteness.
-/
import Idealize.ShloMosaic.Lib.ValueIdx
import Idealize.ShloMosaic.PureOps.Ideal.Laws

noncomputable section

namespace Cert.Lib.DotRows

open Idealize.ShloMosaic Idealize.ShloMosaic.ValueIdx

variable {M K N : Nat} {φ₁ φ₂ : FTy}

/-- The left operand's index at output entry (p, q) and contraction position k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => rfl
  | ⟨1, _⟩ => exact ((DotDims.plain M K N).lhsIdx_val_of_single rfl _ _).trans hk

/-- The right operand's index at output entry (p, q) and contraction position k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single rfl _ _).trans hk
  | ⟨1, _⟩ => rfl

/-- Entry (p, q) of the host's product x · w is the sum over k of x[p, k] · w[k, q]. -/
theorem dotGeneral_plain_apply (x : FVec Ideal ⟨2, ![M, K]⟩ φ₁) (w : FVec Ideal ⟨2, ![K, N]⟩ φ₂) (p : Fin M) (q : Fin N) :
    Host.dotGeneral (F := Ideal) (DotDims.plain M K N) none x w (ix2 p q) = ∑ k : Fin K, x (ix2 p k) * w (ix2 k q) := by
  simp only [Host.dotGeneral]
  rw [Ideal.dotGeneral_apply, ← Equiv.sum_comp (contrEquiv1 (DotDims.plain M K N) K rfl rfl).symm]
  exact Finset.sum_congr rfl fun k _ => by rw [plain_lhsIdx, plain_rhsIdx]

/-- Entry (p, q) of a kernel's product x · w accumulated into the zero splat is the same sum. -/
theorem matmul_plain_apply (x : FVec Ideal ⟨2, ![M, K]⟩ φ₁) (w : FVec Ideal ⟨2, ![K, N]⟩ φ₂) (p : Fin M) (q : Fin N) :
    matmul (F := Ideal) (DotDims.plain M K N) none x w (constant ⟨2, ![M, N]⟩ .f32 0x00000000#32) (ix2 p q)
      = ∑ k : Fin K, x (ix2 p k) * w (ix2 k q) := by
  simp only [matmul]
  rw [Ideal.matmul_constant_zero_apply, ← Equiv.sum_comp (contrEquiv1 (DotDims.plain M K N) K rfl rfl).symm]
  exact Finset.sum_congr rfl fun k _ => by rw [plain_lhsIdx, plain_rhsIdx]

/-- ROW BLOCKS. If `xb` is the block of `B` rows of `x` that starts at row `r0` (`hx`), then entry (p, q) of the kernel's
    product `xb · w` into the zero splat is entry (r0 + p, q) of the host's product `x · w`. -/
theorem matmul_rows {B : Nat} (x : FVec Ideal ⟨2, ![M, K]⟩ φ₁) (w : FVec Ideal ⟨2, ![K, N]⟩ φ₂)
    (xb : FVec Ideal ⟨2, ![B, K]⟩ φ₁) (r0 : Nat) (p : Fin B) (q : Fin N) (hp : r0 + p.val < M)
    (hx : ∀ k : Fin K, xb (ix2 p k) = x (ix2 ⟨r0 + p.val, hp⟩ k)) :
    matmul (F := Ideal) (DotDims.plain B K N) none xb w (constant ⟨2, ![B, N]⟩ .f32 0x00000000#32) (ix2 p q)
      = Host.dotGeneral (F := Ideal) (DotDims.plain M K N) none x w (ix2 ⟨r0 + p.val, hp⟩ q) := by
  rw [matmul_plain_apply, dotGeneral_plain_apply]
  exact Finset.sum_congr rfl fun k _ => by rw [hx k]

end Cert.Lib.DotRows

end
-- ==== Proof.LibRowSpec.lean ====
/-
  The two row-wise building blocks of a transformer layer, over the extended reals.

  A layer normalisation acts on one row of `C` numbers: subtract the row's mean, scale by the reciprocal square
  root of the mean squared deviation plus a small constant, then apply a per-lane gain and offset. An affine map takes
  a row `h` of `K` numbers to the `N` numbers `∑ k, h k * W k q + b q`. The divisor of the mean and the small constant
  are parameters (the programs give them as float literals, which are never evaluated). A query / key / value row is
  an affine map of a normalised row; the row after the attention block is
  `x2 = x + (agg · Wo + bo)`, then `x2 + (max (LN(x2) · W1 + b1) 0 · W2 + b2)`.
-/
import Mathlib
import Idealize.ShloMosaic.PureOps.Ideal

noncomputable section

open scoped BigOperators

namespace Cert.LibRowSpec

open Idealize.ShloMosaic

variable {C K N J : Nat}

/-- The float literal `128.0`, the divisor of a row's mean (never evaluated: both programs spell the same word). -/
abbrev lit128 : EReal := Ideal.ofBits .f32 0x43000000#32

/-- The float literal nearest to `1e-5`, the constant under the reciprocal square root. -/
abbrev litEps : EReal := Ideal.ofBits .f32 0x3727C5AC#32

/-- The float literal `0.0`. -/
abbrev litZero : EReal := Ideal.ofBits .f32 0x00000000#32

/-- The mean of a row: its sum divided by `n`. -/
def mean (n : EReal) (x : Fin C → EReal) : EReal := Ideal.div (∑ k, x k) n

/-- The row minus its mean. -/
def centred (n : EReal) (x : Fin C → EReal) : Fin C → EReal := fun k => x k - mean n x

/-- Layer normalisation of one row, with gain `g` and offset `b`. -/
def lnRow (n eps : EReal) (x g b : Fin C → EReal) : Fin C → EReal := fun k =>
  centred n x k * Ideal.rsqrt (mean n (fun j => centred n x j * centred n x j) + eps) * g k + b k

/-- An affine map of one row. -/
def affRow (h : Fin K → EReal) (W : Fin K → Fin N → EReal) (b : Fin N → EReal) : Fin N → EReal :=
  fun q => (∑ k, h k * W k q) + b q

/-- A projected row: an affine map of the normalised row. -/
def projRow (n eps : EReal) (x g be : Fin C → EReal) (W : Fin C → Fin N → EReal) (b : Fin N → EReal) : Fin N → EReal :=
  affRow (lnRow n eps x g be) W b

/-- The residual row after the attention block's output projection. -/
def residRow (x : Fin N → EReal) (agg : Fin K → EReal) (Wo : Fin K → Fin N → EReal) (bo : Fin N → EReal) : Fin N → EReal :=
  fun q => x q + affRow agg Wo bo q

/-- The feed-forward block on a row `y`: `y + (max (LN(y) · W1 + b1) 0 · W2 + b2)`. -/
def ffnRow (n eps zero : EReal) (y g be : Fin C → EReal) (W1 : Fin C → Fin J → EReal) (b1 : Fin J → EReal)
    (W2 : Fin J → Fin C → EReal) (b2 : Fin C → EReal) : Fin C → EReal :=
  fun q => y q + affRow (fun j => max (affRow (lnRow n eps y g be) W1 b1 j) zero) W2 b2 q

end Cert.LibRowSpec

end
-- ==== Proof.LibPadAffine.lean ====
/-
  Sums and affine maps that do not see zero padding.

  If a family of K' terms agrees with a family of K ≤ K' terms on the first K positions and vanishes on the others, the
  two sums are equal. Hence an affine map h ↦ (∑ k, h k * W k q) + b q computed on padded data — a longer row, a taller
  and wider matrix, a longer offset — agrees, at each of the original output positions, with the affine map on the
  original data, as soon as every product h' k * W' k q at a padded position k is zero (because the row is zero there,
  or the matrix is). Only the commutative-monoid laws of + are used; nothing here needs finiteness.
-/
import Mathlib
import proofs.«114540_j82025285419746_2_alg».proof.Proof.LibRowSpec

noncomputable section

open scoped BigOperators

namespace Cert.LibPadAffine

open Cert.LibRowSpec

/-- A sum of K' terms that are the K terms of `f` followed by zeros is the sum of `f`. -/
theorem sum_fin_pad {α : Type} [AddCommMonoid α] {K K' : Nat} (hK : K ≤ K') (f : Fin K → α) (f' : Fin K' → α)
    (hin : ∀ (k' : Fin K') (k : Fin K), k'.val = k.val → f' k' = f k)
    (hout : ∀ k' : Fin K', K ≤ k'.val → f' k' = 0) : ∑ k', f' k' = ∑ k, f k := by
  classical
  let g : ℕ → α := fun n => if h : n < K then f ⟨n, h⟩ else 0
  have hf' : ∀ k' : Fin K', f' k' = g k'.val := fun k' => by
    by_cases h : k'.val < K
    · simp only [g, dif_pos h]; exact hin k' ⟨k'.val, h⟩ rfl
    · simp only [g, dif_neg h]; exact hout k' (Nat.le_of_not_lt h)
  have hf : ∀ k : Fin K, f k = g k.val := fun k => by simp only [g, dif_pos k.isLt]
  rw [Finset.sum_congr rfl (fun k' _ => hf' k'), Finset.sum_congr rfl (fun k _ => hf k),
    Fin.sum_univ_eq_sum_range g K', Fin.sum_univ_eq_sum_range g K, ← Finset.sum_range_add_sum_Ico g hK]
  rw [Finset.sum_eq_zero (s := Finset.Ico K K'), add_zero]
  intro n hn
  have hn' := (Finset.mem_Ico.mp hn).1
  simp only [g, dif_neg (Nat.not_lt.mpr hn')]

/-- The affine map on padded data, read at an original output position `q` (spelt `q'` among the padded positions). -/
theorem affRow_pad {K K' N N' : Nat} (hK : K ≤ K') (h : Fin K → EReal) (h' : Fin K' → EReal)
    (W : Fin K → Fin N → EReal) (W' : Fin K' → Fin N' → EReal) (b : Fin N → EReal) (b' : Fin N' → EReal)
    (q : Fin N) (q' : Fin N')
    (hin : ∀ (k' : Fin K') (k : Fin K), k'.val = k.val → h' k' * W' k' q' = h k * W k q)
    (hout : ∀ k' : Fin K', K ≤ k'.val → h' k' * W' k' q' = 0)
    (hb : b' q' = b q) : affRow h' W' b' q' = affRow h W b q := by
  unfold affRow
  rw [sum_fin_pad hK (fun k => h k * W k q) (fun k' => h' k' * W' k' q') hin hout, hb]

end Cert.LibPadAffine

end
-- ==== Proof.MlpSpec.lean ====
/-
  Four affine layers with a rectifier between them, on one row, and their indifference to zero padding.

  A row x of K numbers goes through  y₀ = x·W₀ + b,  yᵢ₊₁ = max(yᵢ, z)·W + b  (i = 0, 1, 2)  and the result is y₃, a row
  of N numbers; W₀ is K×N, W is N×N, b has N entries and z is the rectifier's threshold. If the row is lengthened by
  zeros, W₀ by arbitrary rows under them and by arbitrary columns, W by zero rows (and arbitrary columns) and b by
  arbitrary entries, the first N entries of the result do not change: in the first layer every new product has a zero
  factor from the row, in the later ones from the matrix.
-/
import Mathlib
import proofs.«114540_j82025285419746_2_alg».proof.Proof.LibRowSpec
import proofs.«114540_j82025285419746_2_alg».proof.Proof.LibPadAffine

noncomputable section

open scoped BigOperators

namespace Cert.Mlp

open Cert.LibRowSpec Cert.LibPadAffine

variable {K K' N N' : Nat}

/-- The rectifier against the threshold `z`, entry by entry. -/
def relu (z : EReal) (h : Fin N → EReal) : Fin N → EReal := fun j => max (h j) z

/-- The four layers on one row. -/
def mlp4 (z : EReal) (x : Fin K → EReal) (W0 : Fin K → Fin N → EReal) (W : Fin N → Fin N → EReal) (b : Fin N → EReal) :
    Fin N → EReal :=
  affRow (relu z (affRow (relu z (affRow (relu z (affRow x W0 b)) W b)) W b)) W b

/-- The primed data are the unprimed data padded: the row by zeros, the square matrix by zero rows. -/
structure Padded (x : Fin K → EReal) (x' : Fin K' → EReal) (W0 : Fin K → Fin N → EReal) (W0' : Fin K' → Fin N' → EReal)
    (W : Fin N → Fin N → EReal) (W' : Fin N' → Fin N' → EReal) (b : Fin N → EReal) (b' : Fin N' → EReal) : Prop where
  hK : K ≤ K'
  hN : N ≤ N'
  x_in : ∀ (k' : Fin K') (k : Fin K), k'.val = k.val → x' k' = x k
  x_out : ∀ k' : Fin K', K ≤ k'.val → x' k' = 0
  W0_in : ∀ (k' : Fin K') (k : Fin K) (q' : Fin N') (q : Fin N), k'.val = k.val → q'.val = q.val → W0' k' q' = W0 k q
  W_in : ∀ (k' : Fin N') (k : Fin N) (q' : Fin N') (q : Fin N), k'.val = k.val → q'.val = q.val → W' k' q' = W k q
  W_out : ∀ (k' q' : Fin N'), N ≤ k'.val → W' k' q' = 0
  b_in : ∀ (q' : Fin N') (q : Fin N), q'.val = q.val → b' q' = b q

/-- The four layers on padded data agree with the four layers on the original data at every original position. -/
theorem mlp4_padded (z : EReal) {x : Fin K → EReal} {x' : Fin K' → EReal} {W0 : Fin K → Fin N → EReal}
    {W0' : Fin K' → Fin N' → EReal} {W : Fin N → Fin N → EReal} {W' : Fin N' → Fin N' → EReal} {b : Fin N → EReal}
    {b' : Fin N' → EReal} (P : Padded x x' W0 W0' W W' b b') (q' : Fin N') (q : Fin N) (hq : q'.val = q.val) :
    mlp4 z x' W0' W' b' q' = mlp4 z x W0 W b q := by
  have first : ∀ (q' : Fin N') (q : Fin N), q'.val = q.val → affRow x' W0' b' q' = affRow x W0 b q := fun q' q hq =>
    affRow_pad P.hK x x' W0 W0' b b' q q'
      (fun k' k hk => by rw [P.x_in k' k hk, P.W0_in k' k q' q hk hq])
      (fun k' hk => by rw [P.x_out k' hk, zero_mul]) (P.b_in q' q hq)
  have next : ∀ (h : Fin N → EReal) (h' : Fin N' → EReal), (∀ (q' : Fin N') (q : Fin N), q'.val = q.val → h' q' = h q) →
      ∀ (q' : Fin N') (q : Fin N), q'.val = q.val → affRow (relu z h') W' b' q' = affRow (relu z h) W b q :=
    fun h h' hh q' q hq =>
      affRow_pad P.hN (relu z h) (relu z h') W W' b b' q q'
        (fun k' k hk => by unfold relu; rw [hh k' k hk, P.W_in k' k q' q hk hq])
        (fun k' hk => by rw [P.W_out k' q' hk, mul_zero]) (P.b_in q' q hq)
  exact next _ _ (next _ _ (next _ _ first)) q' q hq

end Cert.Mlp

end
-- ==== Proof.MlpNet.lean ====
/-
  The four-layer network on every row of an array, and its indifference to zero padding.

  `net` applies the four layers (MlpSpec) to each row of an R×K₀ array `x`, with ONE N×N matrix `w` — its first K₀ rows
  serve the first layer, all of it the later ones — and an offset row `b`; the result is an R×N array. The rectifier's
  threshold is the float literal 0.0. Padding `x` by zero columns, `w` by zero rows and any columns, and `b` by any
  entries leaves the first N columns of the result unchanged (`net_padded`).
-/
import Mathlib
import Idealize.ShloMosaic.PureOps.Ideal
import Idealize.ShloMosaic.Lib.ValueIdx
import proofs.«114540_j82025285419746_2_alg».proof.Proof.MlpSpec

noncomputable section

namespace Cert.Mlp

open Idealize.ShloMosaic Idealize.ShloMosaic.ValueIdx

variable {R K0 K0' N N' : Nat}

/-- The float literal `0.0`, the rectifier's threshold in both programs. -/
abbrev zlit : EReal := Ideal.ofBits .f32 0x00000000#32

/-- The four layers on every row: entry (r, q) of the result is entry q of the four layers applied to row r. -/
def net (hK : K0 ≤ N) (x : Fin R → Fin K0 → EReal) (w : Fin N → Fin N → EReal) (b : Fin N → EReal) :
    (⟨2, ![R, N]⟩ : Shape).Idx → EReal :=
  fun i => mlp4 zlit (x (i 0)) (fun k q => w ⟨k.val, lt_of_lt_of_le k.isLt hK⟩ q) w b (i 1)

theorem net_apply (hK : K0 ≤ N) (x : Fin R → Fin K0 → EReal) (w : Fin N → Fin N → EReal) (b : Fin N → EReal)
    (r : Fin R) (q : Fin N) :
    net hK x w b (ix2 r q) = mlp4 zlit (x r) (fun k q => w ⟨k.val, lt_of_lt_of_le k.isLt hK⟩ q) w b q := rfl

/-- Padded data give the same network on the original columns. -/
theorem net_padded (hK : K0 ≤ N) (hK' : K0' ≤ N') (hKK : K0 ≤ K0') (hNN : N ≤ N')
    (x : Fin R → Fin K0 → EReal) (x' : Fin R → Fin K0' → EReal) (w : Fin N → Fin N → EReal) (w' : Fin N' → Fin N' → EReal)
    (b : Fin N → EReal) (b' : Fin N' → EReal)
    (x_in : ∀ (r : Fin R) (k' : Fin K0') (k : Fin K0), k'.val = k.val → x' r k' = x r k)
    (x_out : ∀ (r : Fin R) (k' : Fin K0'), K0 ≤ k'.val → x' r k' = 0)
    (w_in : ∀ (k' : Fin N') (k : Fin N) (q' : Fin N') (q : Fin N), k'.val = k.val → q'.val = q.val → w' k' q' = w k q)
    (w_out : ∀ (k' q' : Fin N'), N ≤ k'.val → w' k' q' = 0)
    (b_in : ∀ (q' : Fin N') (q : Fin N), q'.val = q.val → b' q' = b q)
    (r : Fin R) (q' : Fin N') (q : Fin N) (hq : q'.val = q.val) :
    net hK' x' w' b' (ix2 r q') = net hK x w b (ix2 r q) := by
  rw [net_apply, net_apply]
  exact mlp4_padded zlit
    { hK := hKK, hN := hNN, x_in := x_in r, x_out := x_out r,
      W0_in := fun k' k q' q hk hq => w_in _ _ q' q hk hq,
      W_in := w_in, W_out := w_out, b_in := b_in } q' q hq

end Cert.Mlp

end
-- ==== Proof.KernelPayload.lean ====
/-
  What the kernel's body stores, read row by row.

  The body loads the offset row, the block of 256 rows of the padded input, the first 2560 rows of the padded weight
  and (three times) the whole padded weight, and stores  y₃  where  y₀ = x·W₀ + b,  yᵢ₊₁ = max(yᵢ, 0)·W + b:  each product
  accumulated into a zero splat, the offset row broadcast over the 256 rows, the changes of float format the identity.
  Read at row p, each layer is the affine map of that row, so row p of the stored block is the four layers of MlpSpec
  applied to row p of the input block.
-/
import proofs.«114540_j82025285419746_2_alg».proof.Proof.Gen.KernelIdeal.Skeleton
import proofs.«114540_j82025285419746_2_alg».proof.Proof.LibDotRows
import proofs.«114540_j82025285419746_2_alg».proof.Proof.MlpNet
import Idealize.ShloMosaic.Lib.ValueIdx
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.ValueIdx Cert.LibRowSpec Cert.Mlp

/-- The offset row over the block's 256 rows. -/
def kbias (v0 : Vec Ideal S1x3328 .f32) : FVec Ideal S256x3328 .f32 :=
  broadcastTo S256x3328 (shapeCast S1x3328 (shapeCast S1x3328 v0 shapeCasts_S1x3328_S1x3328) shapeCasts_S1x3328_S1x3328)
    broadcasts_S1x3328_S256x3328

/-- One layer: the product into the zero splat plus the offset rows. -/
def klayer {K : Nat} {φ₁ φ₂ : FTy} (h : FVec Ideal ⟨2, ![256, K]⟩ φ₁) (w : FVec Ideal ⟨2, ![K, 3328]⟩ φ₂)
    (bias : FVec Ideal S256x3328 .f32) : FVec Ideal S256x3328 .f32 :=
  addf (matmul (F := Ideal) (DotDims.plain 256 K 3328) none h w (constant (F := Ideal) S256x3328 .f32 0x00000000#32)) bias

/-- The rectifier, then the change of format on the way into the next product. -/
def krelu (h : FVec Ideal S256x3328 .f32) : FVec Ideal S256x3328 .bf16 :=
  truncf .bf16 (maximumf h (broadcast S256x3328 (Scalar.ofBits (F := Ideal) .f32 0x00000000#32))) bitsLt_bf16_f32

/-- The stored value is the four layers, as whole-block operations. -/
theorem pay_eq (v0 : Vec Ideal S1x3328 .f32) (v4 : Vec Ideal S256x2560 .bf16) (v6 : Vec Ideal S2560x3328 .bf16)
    (v13 v20 v27 : Vec Ideal S3328x3328 .bf16) :
    k0_pay1 (F := Ideal) v0 v4 v6 v13 v20 v27
      = klayer (φ₁ := .bf16) (φ₂ := .bf16) (krelu (klayer (φ₁ := .bf16) (φ₂ := .bf16) (krelu (klayer (φ₁ := .bf16) (φ₂ := .bf16) (krelu
          (klayer (φ₁ := .bf16) (φ₂ := .bf16) (shapeCast S256x2560 v4 shapeCasts_S256x2560_S256x2560 : FVec Ideal S256x2560 .bf16)
            (shapeCast S2560x3328 v6 shapeCasts_S2560x3328_S2560x3328 : FVec Ideal S2560x3328 .bf16) (kbias v0)))
          (shapeCast S3328x3328 v13 shapeCasts_S3328x3328_S3328x3328 : FVec Ideal S3328x3328 .bf16) (kbias v0)))
          (shapeCast S3328x3328 v20 shapeCasts_S3328x3328_S3328x3328 : FVec Ideal S3328x3328 .bf16) (kbias v0)))
          (shapeCast S3328x3328 v27 shapeCasts_S3328x3328_S3328x3328 : FVec Ideal S3328x3328 .bf16) (kbias v0) := rfl

theorem kbias_apply (v0 : Vec Ideal S1x3328 .f32) (p : Fin 256) (q : Fin 3328) :
    kbias v0 (ix2 p q) = v0 (ix2 (0 : Fin 1) q) := by
  unfold kbias
  rw [shapeCast_self, shapeCast_self]
  refine broadcastTo_apply v0 _ (ix2 p q) (ix2 (0 : Fin 1) q) fun a => ?_
  match a with
  | ⟨0, _⟩ => show 0 = if (1 : Nat) = 1 then 0 else p.val; rw [if_pos rfl]
  | ⟨1, _⟩ => show q.val = if (3328 : Nat) = 1 then 0 else q.val; rw [if_neg (by decide)]

/-- Row p of a layer is the affine map of row p. -/
theorem klayer_row {K : Nat} {φ₁ φ₂ : FTy} (h : FVec Ideal ⟨2, ![256, K]⟩ φ₁) (w : FVec Ideal ⟨2, ![K, 3328]⟩ φ₂)
    (v0 : Vec Ideal S1x3328 .f32) (p : Fin 256) :
    (fun q => klayer h w (kbias v0) (ix2 p q))
      = affRow (fun k => h (ix2 p k)) (fun k q => w (ix2 k q)) (fun q => v0 (ix2 (0 : Fin 1) q)) := by
  funext q
  show matmul (F := Ideal) (DotDims.plain 256 K 3328) none h w (constant (F := Ideal) S256x3328 .f32 0x00000000#32) (ix2 p q)
    + kbias v0 (ix2 p q) = _
  rw [Cert.Lib.DotRows.matmul_plain_apply, kbias_apply]
  rfl

/-- Row p of a layer after the rectifier is the affine map of the rectified row p. -/
theorem krelu_layer_row (H : FVec Ideal S256x3328 .f32) (w : FVec Ideal S3328x3328 .bf16) (v0 : Vec Ideal S1x3328 .f32) (p : Fin 256)
    (h : Fin 3328 → EReal) (hh : (fun k => H (ix2 p k)) = h) :
    (fun q => klayer (φ₁ := .bf16) (φ₂ := .bf16) (krelu H) (shapeCast S3328x3328 w shapeCasts_S3328x3328_S3328x3328 : FVec Ideal S3328x3328 .bf16)
        (kbias v0) (ix2 p q))
      = affRow (relu zlit h) (fun k q => w (ix2 k q)) (fun q => v0 (ix2 (0 : Fin 1) q)) := by
  have e : (fun k => krelu H (ix2 p k)) = relu zlit (fun k => H (ix2 p k)) := funext fun k => rfl
  rw [shapeCast_self, klayer_row, e, hh]

/-- Row p of the stored block: the four layers applied to row p of the input block. -/
theorem pay_row (v0 : Vec Ideal S1x3328 .f32) (v4 : Vec Ideal S256x2560 .bf16) (v6 : Vec Ideal S2560x3328 .bf16)
    (v13 v20 v27 : Vec Ideal S3328x3328 .bf16) (p : Fin 256) :
    (fun q => k0_pay1 (F := Ideal) v0 v4 v6 v13 v20 v27 (ix2 p q))
      = affRow (relu zlit (affRow (relu zlit (affRow (relu zlit
          (affRow (fun k => v4 (ix2 p k)) (fun k q => v6 (ix2 k q)) (fun q => v0 (ix2 (0 : Fin 1) q))))
          (fun k q => v13 (ix2 k q)) (fun q => v0 (ix2 (0 : Fin 1) q))))
          (fun k q => v20 (ix2 k q)) (fun q => v0 (ix2 (0 : Fin 1) q))))
          (fun k q => v27 (ix2 k q)) (fun q => v0 (ix2 (0 : Fin 1) q)) := by
  rw [pay_eq]
  refine krelu_layer_row _ v27 v0 p _ (krelu_layer_row _ v20 v0 p _ (krelu_layer_row _ v13 v0 p _ ?_))
  rw [shapeCast_self, shapeCast_self]
  exact klayer_row (φ₁ := .bf16) (φ₂ := .bf16) v4 v6 v0 p

end Cert.KernelIdeal.Hand

end
-- ==== Proof.KernelBlocks.lean ====
/-
  From the blocks the grid points write back to the kernel's whole result.

  Point t of the 32-point grid stages rows 256·t … 256·t + 255 of the padded input, the whole padded weight and the
  whole offset row, and writes back rows 256·t … 256·t + 255 of the [8192, 3328] result. By KernelPayload each stored
  row is the four layers applied to the corresponding input row, so every point writes its block of ONE whole-array
  function (`G`: the network of MlpNet on the three staged arrays); the 32 blocks tile the result, so after the region it
  is that function, and the host's final slice keeps its first 3310 columns.
-/
import proofs.«114540_j82025285419746_2_alg».proof.Proof.Gen.KernelIdeal.Frame
import proofs.«114540_j82025285419746_2_alg».proof.Proof.KernelArrays
import proofs.«114540_j82025285419746_2_alg».proof.Proof.KernelPayload
import proofs.«114540_j82025285419746_2_alg».proof.Proof.MlpNet
import Idealize.ShloMosaic.Lib.Pipeline.Value
import Idealize.ShloMosaic.Lib.StableHlo.Run
import Idealize.ShloMosaic.Lib.ValueIdx

noncomputable section

namespace Cert.KernelIdeal.Hand

open Cert.KernelIdeal Cert.KernelIdeal.Gen Idealize.ShloMosaic Idealize.ShloMosaic.TcCoe Idealize.SL.Sem
open Idealize.ShloMosaic.ValueIdx Idealize.ShloMosaic.StableHlo Cert.LibRowSpec Cert.Mlp
open Idealize.ShloMosaic.Pipeline (Dat)

theorem hz : (![0, 0] : Fin 2 → Nat) = fun _ => 0 := funext fun a => by fin_cases a <;> rfl

/-- The network on three staged arrays: the padded input, the padded weight, the offset row. -/
def G (a0 : (⟨S8192x2560, .bf16⟩ : BufTy).Contents (Elt Ideal)) (a1 : (⟨S3328x3328, .bf16⟩ : BufTy).Contents (Elt Ideal))
    (a2 : (⟨S1x3328, .f32⟩ : BufTy).Contents (Elt Ideal)) : (⟨S8192x3328, .f32⟩ : BufTy).Contents (Elt Ideal) :=
  net (by decide : 2560 ≤ 3328) (fun r k => a0 (ix2 r k)) (fun k q => a1 (ix2 k q)) (fun q => a2 (ix2 (0 : Fin 1) q))

/-- The first 2560 rows of a [3328, 3328] block, read at an entry. -/
theorem ld_rows (x1 : Vec Ideal S3328x3328 .bf16) (k : Fin 2560) (q : Fin 3328) :
    View.ld x1 r0_2 (ix2 k q) = x1 (ix2 (⟨k.val, by omega⟩ : Fin 3328) q) := by
  show x1 (r0_2.emb (ix2 k q)) = _
  refine congrArg x1 (funext fun a => Fin.ext ?_)
  match a with
  | ⟨0, _⟩ => show 0 + 1 * k.val = k.val; omega
  | ⟨1, _⟩ => show 0 + 1 * q.val = q.val; omega

/-- A stored block is the network's rows: for input rows that are rows r0 … r0 + 255 of `a0`. -/
theorem block_entry (a0 : (⟨S8192x2560, .bf16⟩ : BufTy).Contents (Elt Ideal)) (a1 : (⟨S3328x3328, .bf16⟩ : BufTy).Contents (Elt Ideal))
    (a2 : (⟨S1x3328, .f32⟩ : BufTy).Contents (Elt Ideal))
    (x0 : Vec Ideal S256x2560 .bf16) (x1 : Vec Ideal S3328x3328 .bf16) (x2 : Vec Ideal S1x3328 .f32)
    (r0 : Nat) (hr0 : r0 + 256 ≤ 8192)
    (h0 : ∀ (p : Fin 256) (k : Fin 2560), x0 (ix2 p k) = a0 (ix2 (⟨r0 + p.val, by omega⟩ : Fin 8192) k))
    (h1 : ∀ (k q : Fin 3328), x1 (ix2 k q) = a1 (ix2 k q))
    (h2 : ∀ q : Fin 3328, x2 (ix2 (0 : Fin 1) q) = a2 (ix2 (0 : Fin 1) q))
    (p : Fin 256) (q : Fin 3328) :
    k0_pay1 (F := Ideal) x2 x0 (View.ld x1 r0_2) x1 x1 x1 (ix2 p q) = G a0 a1 a2 (ix2 (⟨r0 + p.val, by omega⟩ : Fin 8192) q) := by
  have e := congrFun (pay_row x2 x0 (View.ld x1 r0_2) x1 x1 x1 p) q
  refine e.trans ?_
  unfold G
  rw [net_apply]
  unfold mlp4
  have ex : (fun k => x0 (ix2 p k)) = fun k => a0 (ix2 (⟨r0 + p.val, by omega⟩ : Fin 8192) k) := funext fun k => h0 p k
  have ew0 : (fun (k : Fin 2560) (q : Fin 3328) => View.ld x1 r0_2 (ix2 k q))
      = fun (k : Fin 2560) (q : Fin 3328) => a1 (ix2 (⟨k.val, lt_of_lt_of_le k.isLt (by decide : 2560 ≤ 3328)⟩ : Fin 3328) q) :=
    funext fun k => funext fun q => (ld_rows x1 k q).trans (h1 _ q)
  have ew : (fun (k q : Fin 3328) => x1 (ix2 k q)) = fun (k q : Fin 3328) => a1 (ix2 k q) := funext fun k => funext fun q => h1 k q
  have eb : (fun q : Fin 3328 => x2 (ix2 (0 : Fin 1) q)) = fun q : Fin 3328 => a2 (ix2 (0 : Fin 1) q) := funext fun q => h2 q
  rw [ex, ew0, ew, eb]

variable (m : (ℓ : Loc nD τ sig) → Buf (Elt Ideal) ℓ) (ρ : Dev nD → PrngReg)

/-- The printed index maps over the grid: the input's and the result's row blocks move together with the point, the
    weight and the offset row stay at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT `t` WRITES BACK is block `t` of the network on the staged arrays. -/
theorem flushed_eq (c : Dev nD) (t : Fin cfg0.N) :
    (dats m 0 c).flushed 3 t
      = ((cfg0.win 3).blk t).view.read (Elt Ideal) (G (V m c main_v6) (V m c main_v2) (V m c main_v4)) := by
  show (cfg0.win 3).cut (grid0.coords t) ((dats m 0 c).after 3 t) = _
  rw [after0_3]
  unfold out0_3
  rw [View.canon_unit_zero hz]
  simp only [View.ld_unit_zero (S := S1x3328) hz, View.ld_unit_zero (S := S256x2560) hz, View.ld_unit_zero (S := S3328x3328) hz]
  obtain ⟨e00, e01, e10, e11, e20, e21, e30, e31⟩ := idx_facts t
  have ht : t.val < 32 := lt_of_lt_of_eq t.isLt (show cfg0.N = 32 from N_0)
  refine funext fun (j : S256x3328.Idx) => ?_
  obtain ⟨p, q, rfl⟩ : ∃ (p : Fin 256) (q : Fin 3328), j = ix2 p q := ⟨j 0, j 1, eq_ix2 j⟩
  show k0_pay1 (F := Ideal) (iblk m c 2 t) (iblk m c 0 t) (View.ld (iblk m c 1 t) r0_2) (iblk m c 1 t) (iblk m c 1 t) (iblk m c 1 t) (ix2 p q)
    = G (V m c main_v6) (V m c main_v2) (V m c main_v4) (((cfg0.win 3).blk t).view.emb (ix2 p q))
  refine (block_entry (V m c main_v6) (V m c main_v2) (V m c main_v4) (iblk m c 0 t) (iblk m c 1 t) (iblk m c 2 t)
    (t.val * 256) (by omega) ?_ ?_ ?_ p q).trans ?_
  · intro p k
    show V m c main_v6 (((cfg0.win 0).blk t).view.emb (ix2 p k)) = V m c main_v6 _
    refine congrArg (V m c main_v6) (funext fun a => Fin.ext ?_)
    match a with
    | ⟨0, _⟩ => show win0_0.index t (0 : Fin 2) * 256 + 1 * p.val = t.val * 256 + p.val; rw [e00]; omega
    | ⟨1, _⟩ => show win0_0.index t (1 : Fin 2) * 2560 + 1 * k.val = k.val; rw [e01]; omega
  · intro k q
    show V m c main_v2 (((cfg0.win 1).blk t).view.emb (ix2 k q)) = V m c main_v2 _
    refine congrArg (V m c main_v2) (funext fun a => Fin.ext ?_)
    match a with
    | ⟨0, _⟩ => show win0_1.index t (0 : Fin 2) * 3328 + 1 * k.val = k.val; rw [e10]; omega
    | ⟨1, _⟩ => show win0_1.index t (1 : Fin 2) * 3328 + 1 * q.val = q.val; rw [e11]; omega
  · intro q
    show V m c main_v4 (((cfg0.win 2).blk t).view.emb (ix2 (0 : Fin 1) q)) = V m c main_v4 _
    refine congrArg (V m c main_v4) (funext fun a => Fin.ext ?_)
    match a with
    | ⟨0, _⟩ => show win0_2.index t (0 : Fin 2) * 1 + 1 * 0 = 0; rw [e20]
    | ⟨1, _⟩ => show win0_2.index t (1 : Fin 2) * 3328 + 1 * q.val = q.val; rw [e21]; omega
  · refine congrArg (G (V m c main_v6) (V m c main_v2) (V m c main_v4)) (funext fun a => Fin.ext ?_)
    match a with
    | ⟨0, _⟩ => show t.val * 256 + p.val = win0_3.index t (0 : Fin 2) * 256 + 1 * p.val; rw [e30]; omega
    | ⟨1, _⟩ => show q.val = win0_3.index t (1 : Fin 2) * 3328 + 1 * q.val; rw [e31]; omega

/-- An index of the result is in point `t`'s block iff each coordinate is in the block's range on its axis. -/
theorem mem_blk (t : Fin cfg0.N) (i : S8192x3328.Idx) :
    i ∈ ((cfg0.win 3).blk t).view.set ↔ ∀ a : Fin 2, win0_3.index t a * S256x3328.size a ≤ (i a).val
      ∧ (i a).val < win0_3.index t a * S256x3328.size a + S256x3328.size a := by
  show i ∈ ((View.whole main_v7).slice (win0_3.rect t)).set ↔ _
  rw [View.set_slice_whole, Rect.mem_set_unit]
  exact Iff.rfl

/-- Every index of the result is in the block of the point its row falls in. -/
theorem cover (i : S8192x3328.Idx) :
    ∃ t : Fin cfg0.N, (cfg0.win 3).flush t = true ∧ i ∈ ((cfg0.win 3).blk t).view.set := by
  have hi0 : (i 0).val < 8192 := (i 0).isLt
  have hi1 : (i 1).val < 3328 := (i 1).isLt
  have hN : cfg0.N = 32 := N_0
  have hlt : (i 0).val / 256 < cfg0.N := by rw [hN]; omega
  obtain ⟨-, -, -, -, -, -, e30, e31⟩ := idx_facts ⟨(i 0).val / 256, hlt⟩
  have e30' : win0_3.index ⟨(i 0).val / 256, hlt⟩ (0 : Fin 2) = (i 0).val / 256 := e30
  refine ⟨⟨(i 0).val / 256, hlt⟩, flush0_3 _, ?_⟩
  rw [mem_blk]
  intro a
  match a with
  | ⟨0, _⟩ =>
    show win0_3.index ⟨(i 0).val / 256, hlt⟩ (0 : Fin 2) * 256 ≤ (i 0).val
      ∧ (i 0).val < win0_3.index ⟨(i 0).val / 256, hlt⟩ (0 : Fin 2) * 256 + 256
    rw [e30']; omega
  | ⟨1, _⟩ =>
    show win0_3.index ⟨(i 0).val / 256, hlt⟩ (1 : Fin 2) * 3328 ≤ (i 1).val
      ∧ (i 1).val < win0_3.index ⟨(i 0).val / 256, hlt⟩ (1 : Fin 2) * 3328 + 3328
    rw [e31]; omega

/-- THE RESULT ARRAY after the region is the network on the staged arrays. -/
theorem final (c : Dev nD) : (dats m 0 c).arrAt 3 cfg0.N = G (V m c main_v6) (V m c main_v2) (V m c main_v4) :=
  (dats m 0 c).arrAt_eq_of_cover 3 _ (fun t _ => flushed_eq m c t) cover

/-- The program's result: the host's slice of the region's array. -/
theorem tail_v8 (c : Dev nD) :
    Pipeline.afterTail₀ cfgs (dats m) 0 (V0 m) [hostOps1] c main_v8
      = extractStridedSlice S8192x3310 ![0, 0] (G (V m c main_v6) (V m c main_v2) (V m c main_v4)) slices_S8192x3328_S8192x3310_0_0 := by
  unfold Pipeline.afterTail₀
  show StableHlo.after hostOps1 _ (Proc.devRef .tc main_v8) = _
  after_results
  refine congrArg (fun z : (⟨S8192x3328, .f32⟩ : BufTy).Contents (Elt Ideal) =>
    extractStridedSlice S8192x3310 ![0, 0] z slices_S8192x3328_S8192x3310_0_0) ?_
  exact (Pipeline.withArrays_arr spec0 launch0.win.arr_inj c _ _ 3).trans (final m c)

/-- The first 3310 columns of the network on the padded arrays are the network on the arguments themselves: the padding
    columns of the input are zero, and so are the padding rows of the weight. -/
theorem slice_eq_net (X : FVec Ideal S8192x2500 .f32) (Wm : FVec Ideal S3310x3310 .f32) (B : FVec Ideal S3310 .f32) :
    extractStridedSlice S8192x3310 ![0, 0] (G (XP X) (WP Wm) (BP B)) slices_S8192x3328_S8192x3310_0_0
      = net (by decide : 2500 ≤ 3310) (fun r k => X (ix2 r k)) (fun k q => Wm (ix2 k q)) (fun q => B (ix1 q)) := by
  funext i
  obtain ⟨r, q, rfl⟩ : ∃ (r : Fin 8192) (q : Fin 3310), i = ix2 r q := ⟨i 0, i 1, eq_ix2 i⟩
  have hq : q.val < 3328 := lt_of_lt_of_le q.isLt (by decide)
  rw [extractStridedSlice_apply ![0, 0] _ slices_S8192x3328_S8192x3310_0_0 (ix2 r q) (ix2 r (⟨q.val, hq⟩ : Fin 3328)) (fun a => by
    match a with
    | ⟨0, _⟩ => show r.val = 0 + r.val; omega
    | ⟨1, _⟩ => show q.val = 0 + q.val; omega)]
  unfold G
  exact net_padded _ _ (by decide) (by decide) _ _ _ _ _ _ (XP_in X) (XP_out X)
    (fun k' k q' q hk hq => WP_in Wm k' q' k q hk hq) (WP_out Wm) (BP_in B) r ⟨q.val, hq⟩ q rfl

/-- The kernel's run, read: the result holds the network on the arguments, the arguments are unchanged. -/
theorem run : θ_run defs (onTc (τ := τ) (main (F := Ideal))) ⟨m, fun _ => 0, ρ⟩ fun r => ∀ c : Dev nD,
      r.2.mem ((c.tc : Thread nD τ).loc main_v8)
        = net (by decide : 2500 ≤ 3310) (fun r k => m ((c.tc : Thread nD τ).loc main_arg0) (ix2 r k))
            (fun k q => (mulf (m ((c.tc : Thread nD τ).loc main_arg1) : FVec Ideal S3310x3310 .f32)
              (m ((c.tc : Thread nD τ).loc main_arg3)) : FVec Ideal S3310x3310 .f32) (ix2 k q))
            (fun q => m ((c.tc : Thread nD τ).loc main_arg2) (ix1 q))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v8 (Pipeline.mem_restRefs_of main_v8 (by decide) (by decide))).trans
        ((tail_v8 m c).trans (by rw [V_v6 m c, V_v2 m c, V_v4 m c]; exact slice_eq_net _ _ _)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Hand

end
-- ==== Proof.LibRowReduce.lean ====
/-
  A row's maximum and a row's sum, as a kernel and as the host compute them.

  For an array `v : [R, C]` reduced along its second axis, over the extended reals: the kernel's lane maximum from the
  word of `-∞` and the host's reduce with a maximum body from the same word are both the fold of `max` over the row's
  `C` entries; the kernel's lane sum and the host's sum from zero are both the plain sum of the row's entries. Also the
  two small facts that go with them: `max (-∞) y = y`, and a vector `[R]` recast as a column `[R, 1]` reads its row.
-/
import Mathlib
import Idealize.ShloMosaic.PureOps.Ideal
import Idealize.ShloMosaic.PureOps.Ideal.Laws
import Idealize.ShloMosaic.Lib.Pipeline.Value
import Idealize.ShloMosaic.Lib.ValueIdx

noncomputable section

open scoped BigOperators

namespace Cert.LibRowReduce

open Idealize.ShloMosaic Idealize.ShloMosaic.ValueIdx

variable {R C : Nat}

/-- The maximum of `C` extended reals, folded from the f32 word of `-∞`. -/
def rowMax (f : Fin C → EReal) : EReal :=
  (Finset.univ : Finset (Fin C)).fold max (Ideal.ofBits .f32 0xFF800000#32) f

/-- The f32 word `0xFF800000` is `-∞`, the identity of `max`. -/
theorem max_negInf (y : EReal) : max (Ideal.ofBits .f32 0xFF800000#32) y = y := by
  simp [Ideal.ofBits, Ideal.ieee]

/-- The reduced index `r` with lane `k` put back is `(r, k)`. -/
theorem lift_row (h : (⟨2, ![R, C]⟩ : Shape).Reduces [1] (⟨1, ![R]⟩ : Shape)) (r : Fin R)
    (k : Fin ((⟨2, ![R, C]⟩ : Shape).size 1)) : h.lift (ix1 r) k = ix2 r (⟨k.val, k.isLt⟩ : Fin C) := by
  funext c; apply Fin.ext
  fin_cases c <;> rfl

/-- The kernel's lane maximum of row `r`. -/
theorem multiReduction_max_row (src : FVec Ideal ⟨2, ![R, C]⟩ .f32)
    (h : (⟨2, ![R, C]⟩ : Shape).Reduces [1] (⟨1, ![R]⟩ : Shape)) (hφ : FKind.Formats .f32)
    (hacc : (0xFF800000#32 : BitVec 32) = FKind.maximumf.neutral .f32 hφ) (r : Fin R) :
    multiReduction .maximumf [1] (⟨1, ![R]⟩ : Shape) src 0xFF800000#32 h hφ hacc (ix1 r) = rowMax fun k => src (ix2 r k) := by
  rw [Ideal.multiReduction_maximumf_single src _ h hφ hacc (ix1 r)]
  have hf : (src ∘ h.lift (ix1 r)) = fun k : Fin C => src (ix2 r k) :=
    funext fun k => congrArg src (lift_row h r k)
  unfold rowMax
  exact congrArg (fun f => Finset.fold max (Ideal.ofBits .f32 0xFF800000#32) f (Finset.univ : Finset (Fin C))) hf

/-- The host's reduce with a maximum body along axis 1, from the word of `-∞`, at row `r`. -/
theorem hostReduce_max_row (x : FVec Ideal ⟨2, ![R, C]⟩ .f32) (init : (⟨0, ![]⟩ : Shape).Idx → Ideal .f32)
    (hinit : ∀ i, init i = Ideal.ofBits .f32 0xFF800000#32)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (r : Fin R) :
    Host.reduce FloatOps.maximumf x init h' hu (ix1 r) = rowMax fun k => x (ix2 r k) := by
  rw [Host.reduce_eq_fold_single FloatOps.maximumf x _ h' h hu, hinit]
  have hf : (x ∘ h.lift (ix1 r)) = fun k : Fin C => x (ix2 r k) :=
    funext fun k => congrArg x (lift_row h r k)
  unfold rowMax
  exact congrArg (fun f => Finset.fold max (Ideal.ofBits .f32 0xFF800000#32) f (Finset.univ : Finset (Fin C))) hf

/-- The kernel's lane sum of row `r`. -/
theorem multiReduction_add_row (src : FVec Ideal ⟨2, ![R, C]⟩ .f32)
    (h : (⟨2, ![R, C]⟩ : Shape).Reduces [1] (⟨1, ![R]⟩ : Shape)) (hφ : FKind.Formats .f32)
    (hacc : (0x00000000#32 : BitVec 32) = FKind.add.neutral .f32 hφ) (r : Fin R) :
    multiReduction .add [1] (⟨1, ![R]⟩ : Shape) src 0x00000000#32 h hφ hacc (ix1 r) = ∑ k : Fin C, src (ix2 r k) := by
  rw [Ideal.multiReduction_add_single src _ h hφ hacc (ix1 r)]
  refine Finset.sum_congr rfl fun k _ => ?_
  exact congrArg src (lift_row h r k)

/-- The host's sum along axis 1 from zero, at row `r`. -/
theorem hostReduceAdd_row (x : FVec Ideal ⟨2, ![R, C]⟩ .f32) (init : (⟨0, ![]⟩ : Shape).Idx → Ideal .f32)
    (hinit : ∀ i, init i = 0)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (r : Fin R) :
    Host.reduceAdd (F := Ideal) x init h' hu (ix1 r) = ∑ k : Fin C, x (ix2 r k) := by
  show Ideal.hostReduceAdd h' x (init (Shape.Idx.first hu)) (ix1 r) = _
  rw [Ideal.hostReduceAdd_single h' h, hinit, zero_add]
  refine Finset.sum_congr rfl fun k _ => ?_
  exact congrArg x (lift_row h r k)

/-- A vector `[R]` recast as a column `[R, 1]` reads its row. -/
theorem shapeCast_col_apply {α : Type} (v : (⟨1, ![R]⟩ : Shape).Idx → α) (h : (⟨1, ![R]⟩ : Shape).ShapeCasts ⟨2, ![R, 1]⟩)
    (r : Fin R) : shapeCast ⟨2, ![R, 1]⟩ v h (ix2 r (0 : Fin 1)) = v (ix1 r) := by
  refine shapeCast_apply v h _ _ ?_
  rw [Shape.rowMajor_val_two, Shape.rowMajor_val_one]
  show r.val = r.val * 1 + 0
  omega

end Cert.LibRowReduce

end
-- ==== Proof.LibHostLayer.lean ====
/-
  A layer normalisation and an affine map as a host program spells them, read row by row.

  The host normalises every row of `X : [R, C]` with whole-array operations: a sum along the lanes broadcast back as a
  column, a division by a scalar literal broadcast to the column, the column broadcast over the lanes, and the gain and
  offset vectors `[C]` broadcast first to one row `[1, C]` and then over the rows. Read at row `r` and lane `k` this is
  the layer normalisation of row `r`. An affine map is the product with `W : [K, N]` plus the offset vector broadcast
  the same way; read at `(r, q)` it is the affine map of row `r`. Nothing here needs finiteness: only `0 + s = s`.
-/
import Mathlib
import Idealize.ShloMosaic.PureOps.Ideal
import Idealize.ShloMosaic.PureOps.Ideal.Laws
import Idealize.ShloMosaic.Lib.Pipeline.Value
import Idealize.ShloMosaic.Lib.ValueIdx
import proofs.«114540_j82025285419746_2_alg».proof.Proof.LibRowSpec
import proofs.«114540_j82025285419746_2_alg».proof.Proof.LibDotRows
import proofs.«114540_j82025285419746_2_alg».proof.Proof.LibRowReduce

noncomputable section

open scoped BigOperators

namespace Cert.LibHostLayer

open Idealize.ShloMosaic Idealize.ShloMosaic.ValueIdx Cert.LibRowSpec

variable {α : Type} {R C K N : Nat}

/-! ## The five broadcasts read at an index -/

/-- A vector `[R]` broadcast to a column `[R, 1]` reads its entry `r`. -/
theorem vec_col_apply (v : (⟨1, ![R]⟩ : Shape).Idx → α)
    (h : (⟨1, ![R]⟩ : Shape).BroadcastsInDim ⟨2, ![R, 1]⟩ (![0] : Fin 1 → Fin 2)) (r : Fin R) :
    broadcastInDim (s := (⟨1, ![R]⟩ : Shape)) ⟨2, ![R, 1]⟩ (![0] : Fin 1 → Fin 2) h v (ix2 r (0 : Fin 1)) = v (ix1 r) := by
  refine broadcastInDim_apply _ h v _ (ix1 r) fun a => ?_
  match a with
  | ⟨0, _⟩ =>
    show r.val = if R = 1 then 0 else r.val
    split
    · have := r.isLt; omega
    · rfl

/-- A column `[R, 1]` broadcast over the lanes reads its entry `r`. -/
theorem col_mat_apply (v : (⟨2, ![R, 1]⟩ : Shape).Idx → α)
    (h : (⟨2, ![R, 1]⟩ : Shape).BroadcastsInDim ⟨2, ![R, C]⟩ (![0, 1] : Fin 2 → Fin 2)) (r : Fin R) (c : Fin C) :
    broadcastInDim (s := (⟨2, ![R, 1]⟩ : Shape)) ⟨2, ![R, C]⟩ (![0, 1] : Fin 2 → Fin 2) h v (ix2 r c) = v (ix2 r (0 : Fin 1)) := by
  refine broadcastInDim_apply _ h v _ (ix2 r (0 : Fin 1)) fun a => ?_
  match a with
  | ⟨0, _⟩ =>
    show r.val = if R = 1 then 0 else r.val
    split
    · have := r.isLt; omega
    · rfl
  | ⟨1, _⟩ => rfl

/-- A vector `[C]` broadcast to one row `[1, C]` reads its entry `c`. -/
theorem vec_row_apply (v : (⟨1, ![C]⟩ : Shape).Idx → α)
    (h : (⟨1, ![C]⟩ : Shape).BroadcastsInDim ⟨2, ![1, C]⟩ (![1] : Fin 1 → Fin 2)) (c : Fin C) :
    broadcastInDim (s := (⟨1, ![C]⟩ : Shape)) ⟨2, ![1, C]⟩ (![1] : Fin 1 → Fin 2) h v (ix2 (0 : Fin 1) c) = v (ix1 c) := by
  refine broadcastInDim_apply _ h v _ (ix1 c) fun a => ?_
  match a with
  | ⟨0, _⟩ =>
    show c.val = if C = 1 then 0 else c.val
    split
    · have := c.isLt; omega
    · rfl

/-- One row `[1, C]` broadcast over `R` rows reads, at `(r, c)`, its entry `c`. -/
theorem row_mat_apply (v : (⟨2, ![1, C]⟩ : Shape).Idx → α)
    (h : (⟨2, ![1, C]⟩ : Shape).BroadcastsInDim ⟨2, ![R, C]⟩ (![0, 1] : Fin 2 → Fin 2)) (r : Fin R) (c : Fin C) :
    broadcastInDim (s := (⟨2, ![1, C]⟩ : Shape)) ⟨2, ![R, C]⟩ (![0, 1] : Fin 2 → Fin 2) h v (ix2 r c) = v (ix2 (0 : Fin 1) c) := by
  refine broadcastInDim_apply _ h v _ (ix2 (0 : Fin 1) c) fun a => ?_
  match a with
  | ⟨0, _⟩ => rfl
  | ⟨1, _⟩ =>
    show c.val = if C = 1 then 0 else c.val
    split
    · have := c.isLt; omega
    · rfl

/-- A scalar broadcast to any shape reads the scalar. -/
theorem scalar_apply {t : Shape} (v : (⟨0, ![]⟩ : Shape).Idx → α) (dims : Fin 0 → Fin t.rank)
    (h : (⟨0, ![]⟩ : Shape).BroadcastsInDim t dims) (j : t.Idx) :
    broadcastInDim (s := (⟨0, ![]⟩ : Shape)) t dims h v j = v ix0 :=
  broadcastInDim_apply _ h v j ix0 fun a => a.elim0

/-! ## The host's layer normalisation -/

/-- The shape relations the host's layer normalisation of `[R, C]` cites. -/
structure NormRecs (R C : Nat) : Prop where
  sum : (⟨2, ![R, C]⟩ : Shape).ReducesTo [1] (⟨1, ![R]⟩ : Shape)
  sum' : (⟨2, ![R, C]⟩ : Shape).Reduces [1] (⟨1, ![R]⟩ : Shape)
  unit : 0 < (⟨0, ![]⟩ : Shape).numel
  vecCol : (⟨1, ![R]⟩ : Shape).BroadcastsInDim ⟨2, ![R, 1]⟩ (![0] : Fin 1 → Fin 2)
  scalarCol : (⟨0, ![]⟩ : Shape).BroadcastsInDim ⟨2, ![R, 1]⟩ (![] : Fin 0 → Fin 2)
  colMat : (⟨2, ![R, 1]⟩ : Shape).BroadcastsInDim ⟨2, ![R, C]⟩ (![0, 1] : Fin 2 → Fin 2)

/-- The shape relations of a vector `[C]` broadcast over the rows of `[R, C]` through `[1, C]`. -/
structure LaneRecs (R C : Nat) : Prop where
  vecRow : (⟨1, ![C]⟩ : Shape).BroadcastsInDim ⟨2, ![1, C]⟩ (![1] : Fin 1 → Fin 2)
  rowMat : (⟨2, ![1, C]⟩ : Shape).BroadcastsInDim ⟨2, ![R, C]⟩ (![0, 1] : Fin 2 → Fin 2)

variable (hn : NormRecs R C) (hl : LaneRecs R C) (wn we : BitVec 32)

/-- Every row's mean, as a column: the lane sum from zero divided by the literal `wn`. -/
def hostMean (X : FVec Ideal ⟨2, ![R, C]⟩ .f32) : FVec Ideal ⟨2, ![R, 1]⟩ .f32 :=
  Host.divf (broadcastInDim (s := (⟨1, ![R]⟩ : Shape)) ⟨2, ![R, 1]⟩ (![0] : Fin 1 → Fin 2) hn.vecCol
      (Host.reduceAdd X (constant (⟨0, ![]⟩ : Shape) .f32 0x00000000#32) hn.sum hn.unit))
    (broadcastInDim (s := (⟨0, ![]⟩ : Shape)) ⟨2, ![R, 1]⟩ (![] : Fin 0 → Fin 2) hn.scalarCol (constant (⟨0, ![]⟩ : Shape) .f32 wn))

/-- The array minus its rows' means. -/
def hostCentred (X : FVec Ideal ⟨2, ![R, C]⟩ .f32) : FVec Ideal ⟨2, ![R, C]⟩ .f32 :=
  subf X (broadcastInDim (s := (⟨2, ![R, 1]⟩ : Shape)) ⟨2, ![R, C]⟩ (![0, 1] : Fin 2 → Fin 2) hn.colMat (hostMean hn wn X))

/-- Every row's scale, as a column: the reciprocal square root of the mean squared deviation plus the literal `we`. -/
def hostScale (X : FVec Ideal ⟨2, ![R, C]⟩ .f32) : FVec Ideal ⟨2, ![R, 1]⟩ .f32 :=
  Host.rsqrt (addf (hostMean hn wn (mulf (hostCentred hn wn X) (hostCentred hn wn X)))
    (broadcastInDim (s := (⟨0, ![]⟩ : Shape)) ⟨2, ![R, 1]⟩ (![] : Fin 0 → Fin 2) hn.scalarCol (constant (⟨0, ![]⟩ : Shape) .f32 we)))

/-- A lane vector over all rows. -/
def hostLanes (v : FVec Ideal ⟨1, ![C]⟩ .f32) : FVec Ideal ⟨2, ![R, C]⟩ .f32 :=
  broadcastInDim (s := (⟨2, ![1, C]⟩ : Shape)) ⟨2, ![R, C]⟩ (![0, 1] : Fin 2 → Fin 2) hl.rowMat
    (broadcastInDim (s := (⟨1, ![C]⟩ : Shape)) ⟨2, ![1, C]⟩ (![1] : Fin 1 → Fin 2) hl.vecRow v)

/-- The host's layer normalisation of every row of `X`, gain `g`, offset `b`. -/
def hostNorm (X : FVec Ideal ⟨2, ![R, C]⟩ .f32) (g b : FVec Ideal ⟨1, ![C]⟩ .f32) : FVec Ideal ⟨2, ![R, C]⟩ .f32 :=
  addf (mulf (mulf (hostCentred hn wn X)
      (broadcastInDim (s := (⟨2, ![R, 1]⟩ : Shape)) ⟨2, ![R, C]⟩ (![0, 1] : Fin 2 → Fin 2) hn.colMat (hostScale hn wn we X))) (hostLanes hl g))
    (hostLanes hl b)

theorem hostMean_apply (X : FVec Ideal ⟨2, ![R, C]⟩ .f32) (r : Fin R) :
    hostMean hn wn X (ix2 r (0 : Fin 1)) = mean (Ideal.ofBits .f32 wn) fun j => X (ix2 r j) := by
  unfold hostMean
  show Ideal.div (broadcastInDim (s := (⟨1, ![R]⟩ : Shape)) ⟨2, ![R, 1]⟩ (![0] : Fin 1 → Fin 2) hn.vecCol _ (ix2 r (0 : Fin 1)))
    (broadcastInDim (s := (⟨0, ![]⟩ : Shape)) ⟨2, ![R, 1]⟩ (![] : Fin 0 → Fin 2) hn.scalarCol _ (ix2 r (0 : Fin 1))) = _
  rw [vec_col_apply, scalar_apply,
    Cert.LibRowReduce.hostReduceAdd_row X (constant (⟨0, ![]⟩ : Shape) .f32 0x00000000#32) (fun _ => Ideal.ofBits_zero_f32) hn.sum hn.sum' hn.unit r]
  rfl

theorem hostCentred_apply (X : FVec Ideal ⟨2, ![R, C]⟩ .f32) (r : Fin R) (k : Fin C) :
    hostCentred hn wn X (ix2 r k) = centred (Ideal.ofBits .f32 wn) (fun j => X (ix2 r j)) k := by
  unfold hostCentred
  show X (ix2 r k) - broadcastInDim (s := (⟨2, ![R, 1]⟩ : Shape)) ⟨2, ![R, C]⟩ (![0, 1] : Fin 2 → Fin 2) hn.colMat _ (ix2 r k) = _
  rw [col_mat_apply, hostMean_apply]
  rfl

theorem hostScale_apply (X : FVec Ideal ⟨2, ![R, C]⟩ .f32) (r : Fin R) :
    hostScale hn wn we X (ix2 r (0 : Fin 1))
      = Ideal.rsqrt (mean (Ideal.ofBits .f32 wn) (fun j => centred (Ideal.ofBits .f32 wn) (fun j => X (ix2 r j)) j
          * centred (Ideal.ofBits .f32 wn) (fun j => X (ix2 r j)) j) + Ideal.ofBits .f32 we) := by
  unfold hostScale
  show Ideal.rsqrt (hostMean hn wn _ (ix2 r (0 : Fin 1))
    + broadcastInDim (s := (⟨0, ![]⟩ : Shape)) ⟨2, ![R, 1]⟩ (![] : Fin 0 → Fin 2) hn.scalarCol _ (ix2 r (0 : Fin 1))) = _
  rw [hostMean_apply, scalar_apply]
  have hsq : (fun j => mulf (hostCentred hn wn X) (hostCentred hn wn X) (ix2 r j))
      = fun j => centred (Ideal.ofBits .f32 wn) (fun j => X (ix2 r j)) j
          * centred (Ideal.ofBits .f32 wn) (fun j => X (ix2 r j)) j := by
    funext j
    show hostCentred hn wn X (ix2 r j) * hostCentred hn wn X (ix2 r j) = _
    rw [hostCentred_apply]
  rw [hsq]
  rfl

theorem hostLanes_apply (v : FVec Ideal ⟨1, ![C]⟩ .f32) (r : Fin R) (k : Fin C) :
    hostLanes hl v (ix2 r k) = v (ix1 k) := by
  unfold hostLanes
  rw [row_mat_apply, vec_row_apply]

/-- Row `r` of the host's layer normalisation is the layer normalisation of row `r`. -/
theorem hostNorm_apply (X : FVec Ideal ⟨2, ![R, C]⟩ .f32) (g b : FVec Ideal ⟨1, ![C]⟩ .f32) (r : Fin R) (k : Fin C) :
    hostNorm hn hl wn we X g b (ix2 r k)
      = lnRow (Ideal.ofBits .f32 wn) (Ideal.ofBits .f32 we) (fun j => X (ix2 r j)) (fun j => g (ix1 j)) (fun j => b (ix1 j)) k := by
  unfold hostNorm
  show hostCentred hn wn X (ix2 r k)
      * broadcastInDim (s := (⟨2, ![R, 1]⟩ : Shape)) ⟨2, ![R, C]⟩ (![0, 1] : Fin 2 → Fin 2) hn.colMat (hostScale hn wn we X) (ix2 r k)
      * hostLanes hl g (ix2 r k) + hostLanes hl b (ix2 r k) = _
  rw [col_mat_apply, hostCentred_apply, hostScale_apply, hostLanes_apply, hostLanes_apply]
  rfl

/-! ## The host's affine map -/

/-- The host's affine map of every row of `X : [R, K]`: the product with `W : [K, N]` plus `b : [N]` over the rows. -/
def hostAffine (hb : LaneRecs R N) (X : FVec Ideal ⟨2, ![R, K]⟩ .f32) (W : FVec Ideal ⟨2, ![K, N]⟩ .f32)
    (b : FVec Ideal ⟨1, ![N]⟩ .f32) : FVec Ideal ⟨2, ![R, N]⟩ .f32 :=
  addf (Host.dotGeneral (F := Ideal) (DotDims.plain R K N) none X W) (hostLanes hb b)

/-- Row `r` of the host's affine map is the affine map of row `r`. -/
theorem hostAffine_apply (hb : LaneRecs R N) (X : FVec Ideal ⟨2, ![R, K]⟩ .f32) (W : FVec Ideal ⟨2, ![K, N]⟩ .f32)
    (b : FVec Ideal ⟨1, ![N]⟩ .f32) (r : Fin R) (q : Fin N) :
    hostAffine hb X W b (ix2 r q) = affRow (fun k => X (ix2 r k)) (fun k q => W (ix2 k q)) (fun q => b (ix1 q)) q := by
  unfold hostAffine
  show Host.dotGeneral (F := Ideal) (DotDims.plain R K N) none X W (ix2 r q) + hostLanes hb b (ix2 r q) = _
  rw [Cert.Lib.DotRows.dotGeneral_plain_apply, hostLanes_apply]
  rfl

end Cert.LibHostLayer

end
-- ==== Proof.LibConcat2.lean ====
/-
  Two arrays [R, n₁] and [R, n₂] laid side by side along the lanes, read at an index.

  The concatenation along axis 1 is an [R, n₁ + n₂] array. Its entry in row r at one of the first n₁ lanes is the first
  piece's entry in that row and lane; at lane n₁ + q it is the second piece's entry in row r, lane q. So a row of the
  concatenation is the first piece's row followed by the second piece's row.
-/
import Idealize.ShloMosaic.Lib.Pipeline.Value
import Idealize.ShloMosaic.Lib.ValueIdx

namespace Cert.LibConcat2

open Idealize.ShloMosaic Idealize.ShloMosaic.ValueIdx

variable {α : Type} {R n₁ n₂ w : Nat}

/-- Off the joined axis a piece's coordinates are the result's. -/
private theorem off_axis {n : Nat} (r : Fin R) (l : Fin w) (i : (⟨2, ![R, n]⟩ : Shape).Idx) (hi : (i 0).val = r.val) :
    ∀ bb : Fin (⟨2, ![R, n]⟩ : Shape).rank, bb.cast (rfl : (⟨2, ![R, n]⟩ : Shape).rank = (⟨2, ![R, w]⟩ : Shape).rank) ≠ (1 : Fin 2) →
      (i bb).val = ((ix2 r l : (⟨2, ![R, w]⟩ : Shape).Idx) (bb.cast rfl)).val := by
  intro bb hbb
  match bb with
  | ⟨0, _⟩ => exact hi
  | ⟨1, _⟩ => exact absurd rfl hbb

/-- A lane of the first piece. -/
theorem concatenate2_left (a : (⟨2, ![R, n₁]⟩ : Shape).Idx → α) (b : (⟨2, ![R, n₂]⟩ : Shape).Idx → α)
    (h : Shape.Concatenates ([(⟨⟨2, ![R, n₁]⟩, a⟩ : (s : Shape) × (s.Idx → α)), ⟨⟨2, ![R, n₂]⟩, b⟩].map (·.1))
      ⟨2, ![R, w]⟩ (1 : Fin 2))
    (r : Fin R) (l : Fin w) (q : Fin n₁) (hl : l.val = q.val) :
    concatenate ⟨2, ![R, w]⟩ (1 : Fin 2) [⟨⟨2, ![R, n₁]⟩, a⟩, ⟨⟨2, ![R, n₂]⟩, b⟩] h (ix2 r l) = a (ix2 r q) :=
  concatenate_apply_piece (1 : Fin 2) _ h (ix2 r l) 0 (by simp) ⟨2, ![R, n₁]⟩ a rfl rfl 0 rfl
    (ix2 r q) (off_axis r l _ rfl) (by show 0 + q.val = l.val; omega)

/-- A lane of the second piece. -/
theorem concatenate2_right (a : (⟨2, ![R, n₁]⟩ : Shape).Idx → α) (b : (⟨2, ![R, n₂]⟩ : Shape).Idx → α)
    (h : Shape.Concatenates ([(⟨⟨2, ![R, n₁]⟩, a⟩ : (s : Shape) × (s.Idx → α)), ⟨⟨2, ![R, n₂]⟩, b⟩].map (·.1))
      ⟨2, ![R, w]⟩ (1 : Fin 2))
    (r : Fin R) (l : Fin w) (q : Fin n₂) (hl : l.val = n₁ + q.val) :
    concatenate ⟨2, ![R, w]⟩ (1 : Fin 2) [⟨⟨2, ![R, n₁]⟩, a⟩, ⟨⟨2, ![R, n₂]⟩, b⟩] h (ix2 r l) = b (ix2 r q) :=
  concatenate_apply_piece (1 : Fin 2) _ h (ix2 r l) 1 (by simp) ⟨2, ![R, n₂]⟩ b rfl rfl n₁ (by simp)
    (ix2 r q) (off_axis r l _ rfl) (by show n₁ + q.val = l.val; omega)

end Cert.LibConcat2
-- ==== Proof.RefStages.lean ====
/-
  The reference program's result, read row by row.

  The reference pads the input X : [8192, 2500] with 810 zero columns to [8192, 3310], masks the weight once
  (Wm = W ∘ mask, entry by entry), and applies  h ↦ h·Wm + b  four times, with max(·, 0) before the last three.
  Read at row r, each layer is the affine map of that row, so the result's row r is the four layers of MlpSpec applied
  to the padded row of X; and because the padding columns are zero, that is the network on X itself (`result_eq_net`).
-/
import proofs.«114540_j82025285419746_2_alg».proof.Proof.Gen.ReferenceIdeal.Read
import proofs.«114540_j82025285419746_2_alg».proof.Proof.LibHostLayer
import proofs.«114540_j82025285419746_2_alg».proof.Proof.LibConcat2
import proofs.«114540_j82025285419746_2_alg».proof.Proof.MlpNet
import Idealize.ShloMosaic.Lib.ValueIdx
import Idealize.ShloMosaic.PureOps.Ideal.Laws

noncomputable section

namespace Cert.ReferenceIdeal.Hand

open Cert.ReferenceIdeal Cert.ReferenceIdeal.Gen Idealize.ShloMosaic Idealize.ShloMosaic.ValueIdx
open Cert.LibRowSpec Cert.LibHostLayer Cert.Mlp

/-- The offset vector's two broadcasts, to one row and then over the rows. -/
theorem lanes : LaneRecs 8192 3310 := ⟨bcast_S3310_S1x3310_1, bcast_S1x3310_S8192x3310_0_1⟩

/-- The array of zeros the rectifier compares with. -/
def zeros : FVec Ideal S8192x3310 .f32 :=
  broadcastInDim S8192x3310 ![] bcast_S_S8192x3310 (constant (F := Ideal) S_ .f32 0x00000000#32)

/-- The input with 810 zero columns appended. -/
def padded (X : FVec Ideal S8192x2500 .f32) : FVec Ideal S8192x3310 .f32 :=
  concatenate S8192x3310 1 [⟨S8192x2500, X⟩, ⟨S8192x810, broadcastInDim S8192x810 ![] bcast_S_S8192x810 (constant (F := Ideal) S_ .f32 0x00000000#32)⟩]
    concatenates_S8192x2500_S8192x810_S8192x3310_d1

/-- One layer: the product with the masked weight plus the offset over the rows. -/
def layer (H : FVec Ideal S8192x3310 .f32) (Wm : FVec Ideal S3310x3310 .f32) (B : FVec Ideal S3310 .f32) : FVec Ideal S8192x3310 .f32 :=
  hostAffine lanes H Wm B

/-- The program's result as a term of its arguments. -/
def result (X : FVec Ideal S8192x2500 .f32) (Wt : FVec Ideal S3310x3310 .f32) (B : FVec Ideal S3310 .f32) (Mk : FVec Ideal S3310x3310 .f32) :
    FVec Ideal S8192x3310 .f32 :=
  layer (maximumf (layer (maximumf (layer (maximumf (layer (padded X) (mulf Wt Mk) B) zeros) (mulf Wt Mk) B) zeros) (mulf Wt Mk) B) zeros) (mulf Wt Mk) B

theorem zeros_apply (i : S8192x3310.Idx) : zeros i = zlit := by
  unfold zeros
  rw [scalar_apply]
  rfl

/-- A lane of the input proper. -/
theorem padded_left (X : FVec Ideal S8192x2500 .f32) (r : Fin 8192) (l : Fin 3310) (k : Fin 2500) (h : l.val = k.val) :
    padded X (ix2 r l) = X (ix2 r k) :=
  Cert.LibConcat2.concatenate2_left X _ concatenates_S8192x2500_S8192x810_S8192x3310_d1 r l k h

/-- A lane of the padding. -/
theorem padded_right (X : FVec Ideal S8192x2500 .f32) (r : Fin 8192) (l : Fin 3310) (h : 2500 ≤ l.val) :
    padded X (ix2 r l) = 0 := by
  have hl := l.isLt
  unfold padded
  rw [Cert.LibConcat2.concatenate2_right X _ concatenates_S8192x2500_S8192x810_S8192x3310_d1 r l
    (⟨l.val - 2500, by omega⟩ : Fin 810) (by show l.val = 2500 + (l.val - 2500); omega), scalar_apply]
  exact Ideal.ofBits_zero_f32

/-- Row r of a layer is the affine map of row r. -/
theorem layer_row (H : FVec Ideal S8192x3310 .f32) (Wm : FVec Ideal S3310x3310 .f32) (B : FVec Ideal S3310 .f32) (r : Fin 8192) :
    (fun q => layer H Wm B (ix2 r q)) = affRow (fun k => H (ix2 r k)) (fun k q => Wm (ix2 k q)) (fun q => B (ix1 q)) :=
  funext fun q => hostAffine_apply lanes H Wm B r q

/-- Row r of a layer after the rectifier is the affine map of the rectified row r. -/
theorem relu_layer_row (H : FVec Ideal S8192x3310 .f32) (Wm : FVec Ideal S3310x3310 .f32) (B : FVec Ideal S3310 .f32) (r : Fin 8192)
    (h : Fin 3310 → EReal) (hh : (fun k => H (ix2 r k)) = h) :
    (fun q => layer (maximumf H zeros) Wm B (ix2 r q)) = affRow (relu zlit h) (fun k q => Wm (ix2 k q)) (fun q => B (ix1 q)) := by
  have e : (fun k => maximumf H zeros (ix2 r k)) = relu zlit (fun k => H (ix2 r k)) := funext fun k => by
    show max (H (ix2 r k)) (zeros (ix2 r k)) = max (H (ix2 r k)) zlit
    rw [zeros_apply]
  rw [layer_row, ← hh, e]

/-- Row r of the result is the four layers applied to the padded row r. -/
theorem result_row (X : FVec Ideal S8192x2500 .f32) (Wt : FVec Ideal S3310x3310 .f32) (B : FVec Ideal S3310 .f32) (Mk : FVec Ideal S3310x3310 .f32)
    (r : Fin 8192) :
    (fun q => result X Wt B Mk (ix2 r q))
      = mlp4 zlit (fun k => padded X (ix2 r k)) (fun k q => mulf Wt Mk (ix2 k q)) (fun k q => mulf Wt Mk (ix2 k q)) (fun q => B (ix1 q)) :=
  relu_layer_row _ _ _ r _ (relu_layer_row _ _ _ r _ (relu_layer_row _ _ _ r _ (layer_row _ _ _ r)))

/-- The result is the network on the unpadded input: the padding columns are zero. -/
theorem result_eq_net (X : FVec Ideal S8192x2500 .f32) (Wt : FVec Ideal S3310x3310 .f32) (B : FVec Ideal S3310 .f32) (Mk : FVec Ideal S3310x3310 .f32) :
    result X Wt B Mk
      = net (by decide : 2500 ≤ 3310) (fun r k => X (ix2 r k)) (fun k q => mulf Wt Mk (ix2 k q)) (fun q => B (ix1 q)) := by
  funext i
  obtain ⟨r, q, rfl⟩ : ∃ (r : Fin 8192) (q : Fin 3310), i = ix2 r q := ⟨i 0, i 1, eq_ix2 i⟩
  have h1 : result X Wt B Mk (ix2 r q)
      = net (le_refl 3310) (fun r k => padded X (ix2 r k)) (fun k q => mulf Wt Mk (ix2 k q)) (fun q => B (ix1 q)) (ix2 r q) := by
    rw [net_apply]
    exact congrFun (result_row X Wt B Mk r) q
  rw [h1]
  refine net_padded _ _ (by decide) (le_refl _) _ _ _ _ _ _ ?_ ?_ ?_ ?_ ?_ r q q rfl
  · intro r k' k hk; exact padded_left X r k' k hk
  · intro r k' hk; exact padded_right X r k' hk
  · intro k' k q' q hk hq
    obtain rfl : k' = k := Fin.ext hk
    obtain rfl : q' = q := Fin.ext hq
    rfl
  · intro k' q' hk; exact absurd k'.isLt (Nat.not_lt.mpr hk)
  · intro q' q hq
    obtain rfl : q' = q := Fin.ext hq
    rfl

end Cert.ReferenceIdeal.Hand

end
-- ==== Proof.lean ====
/-
  A four-layer perceptron with a block-masked weight: a kernel on zero-padded, 256-row-blocked data against the plain
  program on the unpadded arrays, equal over the extended reals.

  Both programs mask the weight entry by entry (Wm = W ∘ mask) and compute, for every row x of the input,
      y₀ = x·Wm[0:2500, :] + b,      yᵢ₊₁ = max(yᵢ, 0)·Wm + b   (i = 0, 1, 2),
  returning y₃. The reference does it on the input padded with 810 zero columns (so that one 3310×3310 matrix serves every
  layer). The kernel pads the input with 60 zero columns, the weight with 18 zero rows and 18 zero columns and the
  offset with 18 zeros, runs 32 row blocks of 256 rows each through the four layers, and keeps the first 3310 columns.
  Every product a padding position contributes has a zero factor — from the input's padding columns in the first layer,
  from the weight's padding rows in the later ones — and 0·y = y·0 = 0 for every extended real y, so both programs are the
  same network on the unpadded arguments (MlpSpec, MlpNet). No sum is rearranged beyond dropping zero terms, so nothing
  needs the inputs to be finite. The three frames are the generated ones (the reference's its generated run); the ideal
  pass rewrote nothing, so `preserves` is trivial.
-/
import proofs.«114540_j82025285419746_2_alg».proof.Defs
import proofs.«114540_j82025285419746_2_alg».proof.Proof.Gen.Kernel
import proofs.«114540_j82025285419746_2_alg».proof.Proof.Gen.Kernel.Skeleton
import proofs.«114540_j82025285419746_2_alg».proof.Proof.Gen.Kernel.Launch
import proofs.«114540_j82025285419746_2_alg».proof.Proof.Gen.Kernel.Points
import proofs.«114540_j82025285419746_2_alg».proof.Proof.Gen.Kernel.Frame
import proofs.«114540_j82025285419746_2_alg».proof.Proof.Gen.KernelIdeal
import proofs.«114540_j82025285419746_2_alg».proof.Proof.Gen.KernelIdeal.Skeleton
import proofs.«114540_j82025285419746_2_alg».proof.Proof.Gen.KernelIdeal.Launch
import proofs.«114540_j82025285419746_2_alg».proof.Proof.Gen.KernelIdeal.Points
import proofs.«114540_j82025285419746_2_alg».proof.Proof.Gen.KernelIdeal.Frame
import proofs.«114540_j82025285419746_2_alg».proof.Proof.Gen.ReferenceIdeal
import proofs.«114540_j82025285419746_2_alg».proof.Proof.Gen.ReferenceIdeal.Run
import proofs.«114540_j82025285419746_2_alg».proof.Proof.Gen.Pre_finite_inputs
import proofs.«114540_j82025285419746_2_alg».proof.Proof.KernelBlocks
import proofs.«114540_j82025285419746_2_alg».proof.Proof.RefStages
import Idealize.ShloMosaic.Adequacy
import Idealize.ShloMosaic.Init

noncomputable section

namespace Cert.Proof

open Idealize.ShloMosaic Idealize.ShloMosaic.TcCoe Idealize.SL.Sem Idealize.ShloMosaic.ValueIdx Cert.Mlp

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the network on the (agreeing) arguments. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact Cert.ReferenceIdeal.Hand.result_eq_net _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
